-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S8x32x9x128x128 : Shape := ⟨5, ![8, 32, 9, 128, 128]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel
  bcast_S_S8x32x9x128x128 : S_.BroadcastsInDim S8x32x9x128x128 (![] : Fin 0 → Fin S8x32x9x128x128.rank)
  reducesTo_S8x32x9x128x128_S_d0_1_2_3_4 : S8x32x9x128x128.ReducesTo [0, 1, 2, 3, 4] S_

variable [Facts]

def fn {F : FTy → Type} [FloatOps F] (main_arg0 : FVec F S8x256x128x128 .f32) (main_arg1 : FVec F S8x32x9x128x128 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S8x32x9x128x128 .f32 := Host.absf main_arg1
  let main_cst_0 : FVec F S_ .f32 := constant S_ .f32 0x7F800000#32
  let main_v5 : FVec F S8x32x9x128x128 .f32 := broadcastInDim S8x32x9x128x128 ![] bcast_S_S8x32x9x128x128 main_cst_0
  let main_v6 : IVec S8x32x9x128x128 1 := cmpf .olt main_v4 main_v5
  let main_c_1 : IVec S_ 1 := constantI S_ 1 1#1
  let main_v7 : IVec S_ 1 := (fun x v => Host.reduce IntOp.andi x v reducesTo_S8x32x9x128x128_S_d0_1_2_3_4 h_S_) main_v6 main_c_1
  let main_v8 : IVec S_ 1 := andi main_v3 main_v7
  main_v8
-- ==== Kernel.lean ====
abbrev S8x256x128x128 : Shape := ⟨4, ![8, 256, 128, 128]⟩
abbrev S8x32x9x128x128 : Shape := ⟨5, ![8, 32, 9, 128, 128]⟩
abbrev S_ : Shape := ⟨0, ![]⟩
abbrev S8x256x1x128 : Shape := ⟨4, ![8, 256, 1, 128]⟩
abbrev S8x256x129x128 : Shape := ⟨4, ![8, 256, 129, 128]⟩
abbrev S8x256x130x128 : Shape := ⟨4, ![8, 256, 130, 128]⟩
abbrev S8x256x130x1 : Shape := ⟨4, ![8, 256, 130, 1]⟩
abbrev S8x256x130x129 : Shape := ⟨4, ![8, 256, 130, 129]⟩
abbrev S8x256x130x130 : Shape := ⟨4, ![8, 256, 130, 130]⟩
abbrev S1x64x130x130 : Shape := ⟨4, ![1, 64, 130, 130]⟩
abbrev S1x32x9x128x128 : Shape := ⟨5, ![1, 32, 9, 128, 128]⟩
abbrev S1x64x32x128 : Shape := ⟨4, ![1, 64, 32, 128]⟩
abbrev S1x64x34x130 : Shape := ⟨4, ![1, 64, 34, 130]⟩
abbrev S64x34x130 : Shape := ⟨3, ![64, 34, 130]⟩
abbrev S1x32x9x32x128 : Shape := ⟨5, ![1, 32, 9, 32, 128]⟩
abbrev S32x9x32x128 : Shape := ⟨4, ![32, 9, 32, 128]⟩
abbrev S2x32x34x130 : Shape := ⟨4, ![2, 32, 34, 130]⟩
abbrev S2x32x32x128 : Shape := ⟨4, ![2, 32, 32, 128]⟩
abbrev S32x1x32x128 : Shape := ⟨4, ![32, 1, 32, 128]⟩
abbrev S32x32x128 : Shape := ⟨3, ![32, 32, 128]⟩
abbrev S1x32x32x128 : Shape := ⟨4, ![1, 32, 32, 128]⟩
abbrev S64x32x128 : Shape := ⟨3, ![64, 32, 128]⟩

abbrev nBuf : Space → Nat
  | .hbm => 20
  | .vmem => 5
  | .smem => 0
  | _ => 0

abbrev bufTy : (tb : Table) → Fin (tcTables nBuf tb) → BufTy
  | .hbm, ⟨0, _⟩ => ⟨S8x256x128x128, .f32⟩
  | .hbm, ⟨1, _⟩ => ⟨S8x32x9x128x128, .f32⟩
  | .hbm, ⟨2, _⟩ => ⟨S_, .i32⟩
  | .hbm, ⟨3, _⟩ => ⟨S8x256x1x128, .f32⟩
  | .hbm, ⟨4, _⟩ => ⟨S8x256x1x128, .f32⟩
  | .hbm, ⟨5, _⟩ => ⟨S8x256x1x128, .f32⟩
  | .hbm, ⟨6, _⟩ => ⟨S8x256x129x128, .f32⟩
  | .hbm, ⟨7, _⟩ => ⟨S8x256x1x128, .f32⟩
  | .hbm, ⟨8, _⟩ => ⟨S8x256x1x128, .f32⟩
  | .hbm, ⟨9, _⟩ => ⟨S8x256x1x128, .f32⟩
  | .hbm, ⟨10, _⟩ => ⟨S8x256x130x128, .f32⟩
  | .hbm, ⟨11, _⟩ => ⟨S8x256x130x1, .f32⟩
  | .hbm, ⟨12, _⟩ => ⟨S8x256x130x1, .f32⟩
  | .hbm, ⟨13, _⟩ => ⟨S8x256x130x1, .f32⟩
  | .hbm, ⟨14, _⟩ => ⟨S8x256x130x129, .f32⟩
  | .hbm, ⟨15, _⟩ => ⟨S8x256x130x1, .f32⟩
  | .hbm, ⟨16, _⟩ => ⟨S8x256x130x1, .f32⟩
  | .hbm, ⟨17, _⟩ => ⟨S8x256x130x1, .f32⟩
  | .hbm, ⟨18, _⟩ => ⟨S8x256x130x130, .f32⟩
  | .hbm, ⟨19, _⟩ => ⟨S8x256x128x128, .f32⟩
  | .local _ .vmem, ⟨0, _⟩ => ⟨S1x64x130x130, .f32⟩
  | .local _ .vmem, ⟨1, _⟩ => ⟨S1x64x130x130, .f32⟩
  | .local _ .vmem, ⟨2, _⟩ => ⟨S1x32x9x128x128, .f32⟩
  | .local _ .vmem, ⟨3, _⟩ => ⟨S1x64x32x128, .f32⟩
  | .local _ .vmem, ⟨4, _⟩ => ⟨S1x64x32x128, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_v1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c32_i32 : BitVec 32 := 32#32
  let v0 : BitVec 32 := Scalar.muli arg2 c32_i32
  v0
def k0_off1 (i : grid0.Coords) : Fin 4 → Nat :=
  let c0 : Index := 0#32
  let c0_0 : Index := 0#32
  let arg2 : BitVec 32 := BitVec.ofNat 32 (i 2).val
  let c32_i32 : BitVec 32 := 32#32
  let v0 : BitVec 32 := Scalar.muli arg2 c32_i32
  let v1 : BitVec 32 := v0
  let v2 : Index := Scalar.indexCast v1
  let c0_1 : Index := 0#32
  ![0, 0, v2.toNat, 0]
def k0_off2 (i : grid0.Coords) : Fin 5 → Nat :=
  let c0_2 : Index := 0#32
  let c0_3 : Index := 0#32
  let c0_4 : Index := 0#32
  let arg2 : BitVec 32 := BitVec.ofNat 32 (i 2).val
  let c32_i32 : BitVec 32 := 32#32
  let v0 : BitVec 32 := Scalar.muli arg2 c32_i32
  let v1 : BitVec 32 := v0
  let v5 : Index := Scalar.indexCast v1
  let c0_5 : Index := 0#32
  ![0, 0, 0, v5.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x64x130x130 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x32x9x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1x64x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  slices_S8x256x128x128_S8x256x1x128_0_0_0_0 : S8x256x128x128.Slices ![0, 0, 0, 0] S8x256x1x128
  slices_S8x256x128x128_S8x256x1x128_0_0_1_0 : S8x256x128x128.Slices ![0, 0, 1, 0] S8x256x1x128
  concatenates_S8x256x1x128_S8x256x128x128_S8x256x129x128_d2 : Shape.Concatenates [S8x256x1x128, S8x256x128x128] S8x256x129x128 2
  slices_S8x256x129x128_S8x256x1x128_0_0_128_0 : S8x256x129x128.Slices ![0, 0, 128, 0] S8x256x1x128
  slices_S8x256x129x128_S8x256x1x128_0_0_127_0 : S8x256x129x128.Slices ![0, 0, 127, 0] S8x256x1x128
  concatenates_S8x256x129x128_S8x256x1x128_S8x256x130x128_d2 : Shape.Concatenates [S8x256x129x128, S8x256x1x128] S8x256x130x128 2
  slices_S8x256x130x128_S8x256x130x1_0_0_0_0 : S8x256x130x128.Slices ![0, 0, 0, 0] S8x256x130x1
  slices_S8x256x130x128_S8x256x130x1_0_0_0_1 : S8x256x130x128.Slices ![0, 0, 0, 1] S8x256x130x1
  concatenates_S8x256x130x1_S8x256x130x128_S8x256x130x129_d3 : Shape.Concatenates [S8x256x130x1, S8x256x130x128] S8x256x130x129 3
  slices_S8x256x130x129_S8x256x130x1_0_0_0_128 : S8x256x130x129.Slices ![0, 0, 0, 128] S8x256x130x1
  slices_S8x256x130x129_S8x256x130x1_0_0_0_127 : S8x256x130x129.Slices ![0, 0, 0, 127] S8x256x130x1
  concatenates_S8x256x130x129_S8x256x130x1_S8x256x130x130_d3 : Shape.Concatenates [S8x256x130x129, S8x256x130x1] S8x256x130x130 3
  h_S1x64x34x130 : 0 < S1x64x34x130.numel
  shapeCasts_S1x64x34x130_S64x34x130 : S1x64x34x130.ShapeCasts S64x34x130
  h_S1x32x9x32x128 : 0 < S1x32x9x32x128.numel
  shapeCasts_S1x32x9x32x128_S32x9x32x128 : S1x32x9x32x128.ShapeCasts S32x9x32x128
  shapeCasts_S64x34x130_S2x32x34x130 : S64x34x130.ShapeCasts S2x32x34x130
  slices_S2x32x34x130_o0_0_0_0_S2x32x32x128 : S2x32x34x130.Slices ![0, 0, 0, 0] S2x32x32x128
  slices_S32x9x32x128_o0_0_0_0_S32x1x32x128 : S32x9x32x128.Slices ![0, 0, 0, 0] S32x1x32x128
  shapeCasts_S32x1x32x128_S32x32x128 : S32x1x32x128.ShapeCasts S32x32x128
  shapeCasts_S32x32x128_S1x32x32x128 : S32x32x128.ShapeCasts S1x32x32x128
  broadcasts_S1x32x32x128_S2x32x32x128 : S1x32x32x128.Broadcasts S2x32x32x128
  slices_S2x32x34x130_o0_0_0_1_S2x32x32x128 : S2x32x34x130.Slices ![0, 0, 0, 1] S2x32x32x128
  slices_S32x9x32x128_o0_1_0_0_S32x1x32x128 : S32x9x32x128.Slices ![0, 1, 0, 0] S32x1x32x128
  slices_S2x32x34x130_o0_0_0_2_S2x32x32x128 : S2x32x34x130.Slices ![0, 0, 0, 2] S2x32x32x128
  slices_S32x9x32x128_o0_2_0_0_S32x1x32x128 : S32x9x32x128.Slices ![0, 2, 0, 0] S32x1x32x128
  slices_S2x32x34x130_o0_0_1_0_S2x32x32x128 : S2x32x34x130.Slices ![0, 0, 1, 0] S2x32x32x128
  slices_S32x9x32x128_o0_3_0_0_S32x1x32x128 : S32x9x32x128.Slices ![0, 3, 0, 0] S32x1x32x128
  slices_S2x32x34x130_o0_0_1_1_S2x32x32x128 : S2x32x34x130.Slices ![0, 0, 1, 1] S2x32x32x128
  slices_S32x9x32x128_o0_4_0_0_S32x1x32x128 : S32x9x32x128.Slices ![0, 4, 0, 0] S32x1x32x128
  slices_S2x32x34x130_o0_0_1_2_S2x32x32x128 : S2x32x34x130.Slices ![0, 0, 1, 2] S2x32x32x128
  slices_S32x9x32x128_o0_5_0_0_S32x1x32x128 : S32x9x32x128.Slices ![0, 5, 0, 0] S32x1x32x128
  slices_S2x32x34x130_o0_0_2_0_S2x32x32x128 : S2x32x34x130.Slices ![0, 0, 2, 0] S2x32x32x128
  slices_S32x9x32x128_o0_6_0_0_S32x1x32x128 : S32x9x32x128.Slices ![0, 6, 0, 0] S32x1x32x128
  slices_S2x32x34x130_o0_0_2_1_S2x32x32x128 : S2x32x34x130.Slices ![0, 0, 2, 1] S2x32x32x128
  slices_S32x9x32x128_o0_7_0_0_S32x1x32x128 : S32x9x32x128.Slices ![0, 7, 0, 0] S32x1x32x128
  slices_S2x32x34x130_o0_0_2_2_S2x32x32x128 : S2x32x34x130.Slices ![0, 0, 2, 2] S2x32x32x128
  slices_S32x9x32x128_o0_8_0_0_S32x1x32x128 : S32x9x32x128.Slices ![0, 8, 0, 0] S32x1x32x128
  shapeCasts_S2x32x32x128_S64x32x128 : S2x32x32x128.ShapeCasts S64x32x128
  inb_S1x64x32x128_S1x64x32x128_0_0_0_0 : ∀ a, (![0, 0, 0, 0] : Fin 4 → Nat) a + S1x64x32x128.size a ≤ S1x64x32x128.size a
  h_S1x64x32x128 : 0 < S1x64x32x128.numel
  shapeCasts_S1x64x32x128_S64x32x128 : S1x64x32x128.ShapeCasts S64x32x128
  shapeCasts_S64x32x128_S1x64x32x128 : S64x32x128.ShapeCasts S1x64x32x128
  hrank0 : 0 < grid0.rank
  k0_mult1_dvd : ∀ i : grid0.Coords, 32 ∣ (k0_mult1 i).toNat
  k0_off1_inb : ∀ i : grid0.Coords, ∀ a, (k0_off1 i) a + S1x64x34x130.size a ≤ S1x64x130x130.size a
  k0_off2_inb : ∀ i : grid0.Coords, ∀ a, (k0_off2 i) a + S1x32x9x32x128.size a ≤ S1x32x9x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x130x130.size a ≤ S8x256x130x130.size a
  hwx0_0 : ∀ i : grid0.Coords, EltTy.bits .f32 = 32 ∨ (Rect.block (s := S8x256x130x130) S1x64x130x130.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32x9x128x128.size a ≤ S8x32x9x128x128.size a
  hwx0_1 : ∀ i : grid0.Coords, EltTy.bits .f32 = 32 ∨ (Rect.block (s := S8x32x9x128x128) S1x32x9x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x32x128.size a ≤ S8x256x128x128.size a
  hwx0_2 : ∀ i : grid0.Coords, EltTy.bits .f32 = 32 ∨ (Rect.block (s := S8x256x128x128) S1x64x32x128.size (cc0_transform_2 i) (hinb0_2 i)).WholeWords (EltTy.packing .f32)

variable [Facts₀]

abbrev win0_0 : Pipeline.Window sig grid0 :=
  Pipeline.Window.ofSpec (Memref.whole main_v0) S1x64x130x130.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x9x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x128x128 : Shape := ⟨4, ![8, 256, 128, 128]⟩
abbrev S8x32x9x128x128 : Shape := ⟨5, ![8, 32, 9, 128, 128]⟩
abbrev S_ : Shape := ⟨0, ![]⟩
abbrev S8x256x1x128 : Shape := ⟨4, ![8, 256, 1, 128]⟩
abbrev S8x256x129x128 : Shape := ⟨4, ![8, 256, 129, 128]⟩
abbrev S8x256x130x128 : Shape := ⟨4, ![8, 256, 130, 128]⟩
abbrev S8x256x130x1 : Shape := ⟨4, ![8, 256, 130, 1]⟩
abbrev S8x256x130x129 : Shape := ⟨4, ![8, 256, 130, 129]⟩
abbrev S8x256x130x130 : Shape := ⟨4, ![8, 256, 130, 130]⟩
abbrev S8x8x32x128x128 : Shape := ⟨5, ![8, 8, 32, 128, 128]⟩
abbrev S8x32x1x128x128 : Shape := ⟨5, ![8, 32, 1, 128, 128]⟩
abbrev S8x32x128x128 : Shape := ⟨4, ![8, 32, 128, 128]⟩
abbrev S8x1x32x128x128 : Shape := ⟨5, ![8, 1, 32, 128, 128]⟩

abbrev nBuf : Space → Nat
  | .hbm => 130
  | .vmem => 0
  | .smem => 0
  | _ => 0

abbrev hbmTy0_0 (i : Nat) : BufTy := match i % 128 with
  | 0 => ⟨S8x256x128x128, .f32⟩
  | 1 => ⟨S8x32x9x128x128, .f32⟩
  | 2 => ⟨S_, .i32⟩
  | 3 => ⟨S8x256x1x128, .f32⟩
  | 4 => ⟨S8x256x1x128, .f32⟩
  | 5 => ⟨S8x256x1x128, .f32⟩
  | 6 => ⟨S8x256x129x128, .f32⟩
  | 7 => ⟨S8x256x1x128, .f32⟩
  | 8 => ⟨S8x256x1x128, .f32⟩
  | 9 => ⟨S8x256x1x128, .f32⟩
  | 10 => ⟨S8x256x130x128, .f32⟩
  | 11 => ⟨S8x256x130x1, .f32⟩
  | 12 => ⟨S8x256x130x1, .f32⟩
  | 13 => ⟨S8x256x130x1, .f32⟩
  | 14 => ⟨S8x256x130x129, .f32⟩
  | 15 => ⟨S8x256x130x1, .f32⟩
  | 16 => ⟨S8x256x130x1, .f32⟩
  | 17 => ⟨S8x256x130x1, .f32⟩
  | 18 => ⟨S8x256x130x130, .f32⟩
  | 19 => ⟨S_, .f32⟩
  | 20 => ⟨S8x8x32x128x128, .f32⟩
  | 21 => ⟨S_, .i32⟩
  | 22 => ⟨S_, .i32⟩
  | 23 => ⟨S_, .i32⟩
  | 24 => ⟨S_, .i32⟩
  | 25 => ⟨S8x256x128x128, .f32⟩
  | 26 => ⟨S8x8x32x128x128, .f32⟩
  | 27 => ⟨S8x32x1x128x128, .f32⟩
  | 28 => ⟨S8x32x128x128, .f32⟩
  | 29 => ⟨S8x1x32x128x128, .f32⟩
  | 30 => ⟨S8x8x32x128x128, .f32⟩
  | 31 => ⟨S8x8x32x128x128, .f32⟩
  | 32 => ⟨S8x8x32x128x128, .f32⟩
  | 33 => ⟨S_, .i32⟩
  | 34 => ⟨S_, .i32⟩
  | 35 => ⟨S_, .i32⟩
  | 36 => ⟨S_, .i32⟩
  | 37 => ⟨S8x256x128x128, .f32⟩
  | 38 => ⟨S8x8x32x128x128, .f32⟩
  | 39 => ⟨S8x32x1x128x128, .f32⟩
  | 40 => ⟨S8x32x128x128, .f32⟩
  | 41 => ⟨S8x1x32x128x128, .f32⟩
  | 42 => ⟨S8x8x32x128x128, .f32⟩
  | 43 => ⟨S8x8x32x128x128, .f32⟩
  | 44 => ⟨S8x8x32x128x128, .f32⟩
  | 45 => ⟨S_, .i32⟩
  | 46 => ⟨S_, .i32⟩
  | 47 => ⟨S_, .i32⟩
  | 48 => ⟨S_, .i32⟩
  | 49 => ⟨S8x256x128x128, .f32⟩
  | 50 => ⟨S8x8x32x128x128, .f32⟩
  | 51 => ⟨S8x32x1x128x128, .f32⟩
  | 52 => ⟨S8x32x128x128, .f32⟩
  | 53 => ⟨S8x1x32x128x128, .f32⟩
  | 54 => ⟨S8x8x32x128x128, .f32⟩
  | 55 => ⟨S8x8x32x128x128, .f32⟩
  | 56 => ⟨S8x8x32x128x128, .f32⟩
  | 57 => ⟨S_, .i32⟩
  | 58 => ⟨S_, .i32⟩
  | 59 => ⟨S_, .i32⟩
  | 60 => ⟨S_, .i32⟩
  | 61 => ⟨S8x256x128x128, .f32⟩
  | 62 => ⟨S8x8x32x128x128, .f32⟩
  | 63 => ⟨S8x32x1x128x128, .f32⟩
  | 64 => ⟨S8x32x128x128, .f32⟩
  | 65 => ⟨S8x1x32x128x128, .f32⟩
  | 66 => ⟨S8x8x32x128x128, .f32⟩
  | 67 => ⟨S8x8x32x128x128, .f32⟩
  | 68 => ⟨S8x8x32x128x128, .f32⟩
  | 69 => ⟨S_, .i32⟩
  | 70 => ⟨S_, .i32⟩
  | 71 => ⟨S_, .i32⟩
  | 72 => ⟨S_, .i32⟩
  | 73 => ⟨S8x256x128x128, .f32⟩
  | 74 => ⟨S8x8x32x128x128, .f32⟩
  | 75 => ⟨S8x32x1x128x128, .f32⟩
  | 76 => ⟨S8x32x128x128, .f32⟩
  | 77 => ⟨S8x1x32x128x128, .f32⟩
  | 78 => ⟨S8x8x32x128x128, .f32⟩
  | 79 => ⟨S8x8x32x128x128, .f32⟩
  | 80 => ⟨S8x8x32x128x128, .f32⟩
  | 81 => ⟨S_, .i32⟩
  | 82 => ⟨S_, .i32⟩
  | 83 => ⟨S_, .i32⟩
  | 84 => ⟨S_, .i32⟩
  | 85 => ⟨S8x256x128x128, .f32⟩
  | 86 => ⟨S8x8x32x128x128, .f32⟩
  | 87 => ⟨S8x32x1x128x128, .f32⟩
  | 88 => ⟨S8x32x128x128, .f32⟩
  | 89 => ⟨S8x1x32x128x128, .f32⟩
  | 90 => ⟨S8x8x32x128x128, .f32⟩
  | 91 => ⟨S8x8x32x128x128, .f32⟩
  | 92 => ⟨S8x8x32x128x128, .f32⟩
  | 93 => ⟨S_, .i32⟩
  | 94 => ⟨S_, .i32⟩
  | 95 => ⟨S_, .i32⟩
  | 96 => ⟨S_, .i32⟩
  | 97 => ⟨S8x256x128x128, .f32⟩
  | 98 => ⟨S8x8x32x128x128, .f32⟩
  | 99 => ⟨S8x32x1x128x128, .f32⟩
  | 100 => ⟨S8x32x128x128, .f32⟩
  | 101 => ⟨S8x1x32x128x128, .f32⟩
  | 102 => ⟨S8x8x32x128x128, .f32⟩
  | 103 => ⟨S8x8x32x128x128, .f32⟩
  | 104 => ⟨S8x8x32x128x128, .f32⟩
  | 105 => ⟨S_, .i32⟩
  | 106 => ⟨S_, .i32⟩
  | 107 => ⟨S_, .i32⟩
  | 108 => ⟨S_, .i32⟩
  | 109 => ⟨S8x256x128x128, .f32⟩
  | 110 => ⟨S8x8x32x128x128, .f32⟩
  | 111 => ⟨S8x32x1x128x128, .f32⟩
  | 112 => ⟨S8x32x128x128, .f32⟩
  | 113 => ⟨S8x1x32x128x128, .f32⟩
  | 114 => ⟨S8x8x32x128x128, .f32⟩
  | 115 => ⟨S8x8x32x128x128, .f32⟩
  | 116 => ⟨S8x8x32x128x128, .f32⟩
  | 117 => ⟨S_, .i32⟩
  | 118 => ⟨S_, .i32⟩
  | 119 => ⟨S_, .i32⟩
  | 120 => ⟨S_, .i32⟩
  | 121 => ⟨S8x256x128x128, .f32⟩
  | 122 => ⟨S8x8x32x128x128, .f32⟩
  | 123 => ⟨S8x32x1x128x128, .f32⟩
  | 124 => ⟨S8x32x128x128, .f32⟩
  | 125 => ⟨S8x1x32x128x128, .f32⟩
  | 126 => ⟨S8x8x32x128x128, .f32⟩
  | 127 => ⟨S8x8x32x128x128, .f32⟩
  | _ => ⟨S8x256x128x128, .f32⟩

abbrev hbmTy0_1 (i : Nat) : BufTy := match i % 128 with
  | 0 => ⟨S8x8x32x128x128, .f32⟩
  | 1 => ⟨S8x256x128x128, .f32⟩
  | _ => ⟨S8x256x128x128, .f32⟩

abbrev hbmTy (i : Nat) : BufTy := match i / 128 with
  | 0 => hbmTy0_0 i
  | 1 => hbmTy0_1 i
  | _ => ⟨S8x256x128x128, .f32⟩

abbrev bufTy : (tb : Table) → Fin (tcTables nBuf tb) → BufTy
  | .hbm, ⟨i, _⟩ => hbmTy i
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_c_0 : Ref sig .tc := ⟨.hbm, 21, rfl⟩
abbrev main_c_1 : Ref sig .tc := ⟨.hbm, 22, rfl⟩
abbrev main_c_2 : Ref sig .tc := ⟨.hbm, 23, rfl⟩
abbrev main_c_3 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_4 : Ref sig .tc := ⟨.hbm, 33, rfl⟩
abbrev main_c_5 : Ref sig .tc := ⟨.hbm, 34, rfl⟩
abbrev main_c_6 : Ref sig .tc := ⟨.hbm, 35, rfl⟩
abbrev main_c_7 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_8 : Ref sig .tc := ⟨.hbm, 45, rfl⟩
abbrev main_c_9 : Ref sig .tc := ⟨.hbm, 46, rfl⟩
abbrev main_c_10 : Ref sig .tc := ⟨.hbm, 47, rfl⟩
abbrev main_c_11 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_12 : Ref sig .tc := ⟨.hbm, 57, rfl⟩
abbrev main_c_13 : Ref sig .tc := ⟨.hbm, 58, rfl⟩
abbrev main_c_14 : Ref sig .tc := ⟨.hbm, 59, rfl⟩
abbrev main_c_15 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c_16 : Ref sig .tc := ⟨.hbm, 69, rfl⟩
abbrev main_c_17 : Ref sig .tc := ⟨.hbm, 70, rfl⟩
abbrev main_c_18 : Ref sig .tc := ⟨.hbm, 71, rfl⟩
abbrev main_c_19 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_c_20 : Ref sig .tc := ⟨.hbm, 81, rfl⟩
abbrev main_c_21 : Ref sig .tc := ⟨.hbm, 82, rfl⟩
abbrev main_c_22 : Ref sig .tc := ⟨.hbm, 83, rfl⟩
abbrev main_c_23 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_24 : Ref sig .tc := ⟨.hbm, 93, rfl⟩
abbrev main_c_25 : Ref sig .tc := ⟨.hbm, 94, rfl⟩
abbrev main_c_26 : Ref sig .tc := ⟨.hbm, 95, rfl⟩
abbrev main_c_27 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_c_28 : Ref sig .tc := ⟨.hbm, 105, rfl⟩
abbrev main_c_29 : Ref sig .tc := ⟨.hbm, 106, rfl⟩
abbrev main_c_30 : Ref sig .tc := ⟨.hbm, 107, rfl⟩
abbrev main_c_31 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_c_32 : Ref sig .tc := ⟨.hbm, 117, rfl⟩
abbrev main_c_33 : Ref sig .tc := ⟨.hbm, 118, rfl⟩
abbrev main_c_34 : Ref sig .tc := ⟨.hbm, 119, rfl⟩
abbrev main_c_35 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩

abbrev nD : Nat := 1
abbrev τ : Topo := Topo.v7x

variable {F : FTy → Type} [FloatOps F]

class Facts₀ : Prop where
  slices_S8x256x128x128_S8x256x1x128_0_0_0_0 : S8x256x128x128.Slices ![0, 0, 0, 0] S8x256x1x128
  slices_S8x256x128x128_S8x256x1x128_0_0_1_0 : S8x256x128x128.Slices ![0, 0, 1, 0] S8x256x1x128
  concatenates_S8x256x1x128_S8x256x128x128_S8x256x129x128_d2 : Shape.Concatenates [S8x256x1x128, S8x256x128x128] S8x256x129x128 2
  slices_S8x256x129x128_S8x256x1x128_0_0_128_0 : S8x256x129x128.Slices ![0, 0, 128, 0] S8x256x1x128
  slices_S8x256x129x128_S8x256x1x128_0_0_127_0 : S8x256x129x128.Slices ![0, 0, 127, 0] S8x256x1x128
  concatenates_S8x256x129x128_S8x256x1x128_S8x256x130x128_d2 : Shape.Concatenates [S8x256x129x128, S8x256x1x128] S8x256x130x128 2
  slices_S8x256x130x128_S8x256x130x1_0_0_0_0 : S8x256x130x128.Slices ![0, 0, 0, 0] S8x256x130x1
  slices_S8x256x130x128_S8x256x130x1_0_0_0_1 : S8x256x130x128.Slices ![0, 0, 0, 1] S8x256x130x1
  concatenates_S8x256x130x1_S8x256x130x128_S8x256x130x129_d3 : Shape.Concatenates [S8x256x130x1, S8x256x130x128] S8x256x130x129 3
  slices_S8x256x130x129_S8x256x130x1_0_0_0_128 : S8x256x130x129.Slices ![0, 0, 0, 128] S8x256x130x1
  slices_S8x256x130x129_S8x256x130x1_0_0_0_127 : S8x256x130x129.Slices ![0, 0, 0, 127] S8x256x130x1
  concatenates_S8x256x130x129_S8x256x130x1_S8x256x130x130_d3 : Shape.Concatenates [S8x256x130x129, S8x256x130x1] S8x256x130x130 3
  bcast_S_S8x8x32x128x128 : S_.BroadcastsInDim S8x8x32x128x128 (![] : Fin 0 → Fin S8x8x32x128x128.rank)
  sliceFits_S8x256x130x130_S8x256x128x128 : S8x256x130x130.Slices (fun _ => 0) S8x256x128x128
  h_S_ : 0 < S_.numel
  shapeCasts_S8x256x128x128_S8x8x32x128x128 : S8x256x128x128.ShapeCasts S8x8x32x128x128
  slices_S8x32x9x128x128_S8x32x1x128x128_0_0_0_0_0 : S8x32x9x128x128.Slices ![0, 0, 0, 0, 0] S8x32x1x128x128
  shapeCasts_S8x32x1x128x128_S8x32x128x128 : S8x32x1x128x128.ShapeCasts S8x32x128x128
  bcast_S8x32x128x128_S8x1x32x128x128_0_2_3_4 : S8x32x128x128.BroadcastsInDim S8x1x32x128x128 (![0, 2, 3, 4] : Fin 4 → Fin S8x1x32x128x128.rank)
  bcast_S8x1x32x128x128_S8x8x32x128x128_0_1_2_3_4 : S8x1x32x128x128.BroadcastsInDim S8x8x32x128x128 (![0, 1, 2, 3, 4] : Fin 5 → Fin S8x8x32x128x128.rank)
  slices_S8x32x9x128x128_S8x32x1x128x128_0_0_1_0_0 : S8x32x9x128x128.Slices ![0, 0, 1, 0, 0] S8x32x1x128x128
  slices_S8x32x9x128x128_S8x32x1x128x128_0_0_2_0_0 : S8x32x9x128x128.Slices ![0, 0, 2, 0, 0] S8x32x1x128x128
  slices_S8x32x9x128x128_S8x32x1x128x128_0_0_3_0_0 : S8x32x9x128x128.Slices ![0, 0, 3, 0, 0] S8x32x1x128x128
  slices_S8x32x9x128x128_S8x32x1x128x128_0_0_4_0_0 : S8x32x9x128x128.Slices ![0, 0, 4, 0, 0] S8x32x1x128x128
  slices_S8x32x9x128x128_S8x32x1x128x128_0_0_5_0_0 : S8x32x9x128x128.Slices ![0, 0, 5, 0, 0] S8x32x1x128x128
  slices_S8x32x9x128x128_S8x32x1x128x128_0_0_6_0_0 : S8x32x9x128x128.Slices ![0, 0, 6, 0, 0] S8x32x1x128x128
  slices_S8x32x9x128x128_S8x32x1x128x128_0_0_7_0_0 : S8x32x9x128x128.Slices ![0, 0, 7, 0, 0] S8x32x1x128x128
  slices_S8x32x9x128x128_S8x32x1x128x128_0_0_8_0_0 : S8x32x9x128x128.Slices ![0, 0, 8, 0, 0] S8x32x1x128x128
  shapeCasts_S8x8x32x128x128_S8x256x128x128 : S8x8x32x128x128.ShapeCasts S8x256x128x128

variable [Facts₀]

class Facts : Prop extends Facts₀ where

variable [Facts]
-- ==== Proof.Spec.lean ====
/-
  The per-pixel 3×3 aggregation both programs compute, as pure functions of arrays.

  Over a reflect-padded input `xp : [8, 256, 130, 130]` and per-pixel weights `w : [8, 32, 9, 128, 128]` the
  result at (n, c, y, x) is the nine products `xp (n, c, y + kh, x + kw) · w (n, c mod 32, 3·kh + kw, y, x)`
  added one after the other, in the order kh = 0, 1, 2 (outer) and kw = 0, 1, 2 (inner), onto the zero word.
  `pad` is the reflect padding as the host computes it (slices, reversals and concatenations); nothing below
  ever looks inside it: both programs apply it to the same argument.
-/
import Idealize.ShloMosaic.Lib.Pipeline.Value
import Idealize.ShloMosaic.Lib.ValueIdx
import Idealize.ShloMosaic.PureOps.Ideal

noncomputable section

namespace Involution

open Idealize.ShloMosaic

/-- The input and the result: [8, 256, 128, 128]. -/
abbrev SX : Shape := ⟨4, ![8, 256, 128, 128]⟩
/-- The weights: [8, 32, 9, 128, 128]. -/
abbrev SW : Shape := ⟨5, ![8, 32, 9, 128, 128]⟩
/-- The padded input: [8, 256, 130, 130]. -/
abbrev SP : Shape := ⟨4, ![8, 256, 130, 130]⟩
/-- The result with its channels split into 8 groups of 32: [8, 8, 32, 128, 128]. -/
abbrev SG : Shape := ⟨5, ![8, 8, 32, 128, 128]⟩
abbrev SW1 : Shape := ⟨5, ![8, 32, 1, 128, 128]⟩
abbrev SW4 : Shape := ⟨4, ![8, 32, 128, 128]⟩
abbrev SB : Shape := ⟨5, ![8, 1, 32, 128, 128]⟩
abbrev S0 : Shape := ⟨0, ![]⟩
-- the padding's intermediate shapes
abbrev SR1 : Shape := ⟨4, ![8, 256, 1, 128]⟩
abbrev SR129 : Shape := ⟨4, ![8, 256, 129, 128]⟩
abbrev SR130 : Shape := ⟨4, ![8, 256, 130, 128]⟩
abbrev SC1 : Shape := ⟨4, ![8, 256, 130, 1]⟩
abbrev SC129 : Shape := ⟨4, ![8, 256, 130, 129]⟩

theorem castXG : SX.ShapeCasts SG := by decide
theorem castGX : SG.ShapeCasts SX := by decide
theorem castW : SW1.ShapeCasts SW4 := by decide
theorem bcW : SW4.BroadcastsInDim SB (![0, 2, 3, 4] : Fin 4 → Fin SB.rank) := by decide
theorem bcG : SB.BroadcastsInDim SG (![0, 1, 2, 3, 4] : Fin 5 → Fin SG.rank) := by decide
theorem bcZ : S0.BroadcastsInDim SG (![] : Fin 0 → Fin SG.rank) := by decide

theorem cat1 : Shape.Concatenates [SR1, SX] SR129 2 := by decide
theorem cat2 : Shape.Concatenates [SR129, SR1] SR130 2 := by decide
theorem cat3 : Shape.Concatenates [SC1, SR130] SC129 3 := by decide
theorem cat4 : Shape.Concatenates [SC129, SC1] SP 3 := by decide

variable {F : FTy → Type} [FloatOps F]

/-- Reflect padding of the last two axes by one row and one column on each side, as the host computes it: the row
    next to each edge reversed (one row: the reversal is the identity on values) and concatenated outside it, then the
    same with columns. -/
def pad (x : FVec F SX .f32) : FVec F SP .f32 :=
  let r1 : FVec F SR1 .f32 := Host.reverse (s := SR1) [2] (extractStridedSlice SR1 ![0, 0, 1, 0] x (by decide))
  let a : FVec F SR129 .f32 := concatenate SR129 2 [⟨SR1, r1⟩, ⟨SX, x⟩] cat1
  let r2 : FVec F SR1 .f32 := Host.reverse (s := SR1) [2] (extractStridedSlice SR1 ![0, 0, 127, 0] a (by decide))
  let b : FVec F SR130 .f32 := concatenate SR130 2 [⟨SR129, a⟩, ⟨SR1, r2⟩] cat2
  let c1 : FVec F SC1 .f32 := Host.reverse (s := SC1) [3] (extractStridedSlice SC1 ![0, 0, 0, 1] b (by decide))
  let d : FVec F SC129 .f32 := concatenate SC129 3 [⟨SC1, c1⟩, ⟨SR130, b⟩] cat3
  let c2 : FVec F SC1 .f32 := Host.reverse (s := SC1) [3] (extractStridedSlice SC1 ![0, 0, 0, 127] d (by decide))
  concatenate SP 3 [⟨SC129, d⟩, ⟨SC1, c2⟩] cat4

/-- One tap as the reference computes it: the window of the padded input at offset (kh, kw), its channels split into
    groups, times weight plane k broadcast over the groups, added onto the running sum. -/
def tap (kh kw k : Nat) (hp : SP.Slices ![0, 0, kh, kw] SX) (hw : SW.Slices ![0, 0, k, 0, 0] SW1)
    (xp : FVec F SP .f32) (w : FVec F SW .f32) (acc : FVec F SG .f32) : FVec F SG .f32 :=
  addf acc (mulf (shapeCast SG (extractStridedSlice SX ![0, 0, kh, kw] xp hp) castXG)
    (broadcastInDim SG ![0, 1, 2, 3, 4] bcG (broadcastInDim SB ![0, 2, 3, 4] bcW
      (shapeCast SW4 (extractStridedSlice SW1 ![0, 0, k, 0, 0] w hw) castW))))

/-- The reference's result as one term of the padded input and the weights: nine taps onto zeros, the groups merged. -/
def refOut (xp : FVec F SP .f32) (w : FVec F SW .f32) : FVec F SX .f32 :=
  shapeCast SX
    (tap 2 2 8 (by decide) (by decide) xp w
    (tap 2 1 7 (by decide) (by decide) xp w
    (tap 2 0 6 (by decide) (by decide) xp w
    (tap 1 2 5 (by decide) (by decide) xp w
    (tap 1 1 4 (by decide) (by decide) xp w
    (tap 1 0 3 (by decide) (by decide) xp w
    (tap 0 2 2 (by decide) (by decide) xp w
    (tap 0 1 1 (by decide) (by decide) xp w
    (tap 0 0 0 (by decide) (by decide) xp w
      (broadcastInDim SG ![] bcZ (constant S0 .f32 0x00000000#32))))))))))) castGX

end Involution

end
-- ==== Proof.LibChannelGroups.lean ====
/-
  Channels viewed as groups: a shape cast that splits an axis of extent m = b·c into two axes [b, c], or merges them
  back, read at an index. Position r of the merged axis is member q of group p exactly when r = p·c + q (row-major
  order), so the cast [a, m, d, e] → [a, b, c, d, e] read at (i, p, q, y, z) is the operand at (i, p·c + q, y, z), and
  the cast back read at (i, r, y, z) is the operand at (i, p, q, y, z) for any p, q with r = p·c + q (the caller takes
  p = r / c, q = r % c). The same for a leading axis: [m, d, e] ↔ [b, c, d, e]. This is the reshape of an
  [N, C, H, W] array to [N, G, C / G, H, W] and its inverse, and a kernel's view of a channel block as groups.
-/
import Idealize.ShloMosaic.Lib.Pipeline.Value
import Idealize.ShloMosaic.Lib.ValueIdx

namespace Idealize.ShloMosaic.ChannelGroups

open Idealize.ShloMosaic Idealize.ShloMosaic.ValueIdx

variable {α : Type}

/-- [a, m, d, e] cast to [a, b, c, d, e] with m = b·c: (i, p, q, y, z) reads the operand at (i, r, y, z), r = p·c + q. -/
theorem shapeCast_split5_apply {a m b c d e : ℕ} (x : (⟨4, ![a, m, d, e]⟩ : Shape).Idx → α)
    (h : (⟨4, ![a, m, d, e]⟩ : Shape).ShapeCasts ⟨5, ![a, b, c, d, e]⟩)
    (i : Fin a) (p : Fin b) (q : Fin c) (y : Fin d) (z : Fin e) (r : Fin m) (hr : r.val = p.val * c + q.val) (hm : m = b * c) :
    shapeCast ⟨5, ![a, b, c, d, e]⟩ x h (ix5 i p q y z) = x (ix4 i r y z) :=
  shapeCast_apply x h _ _ (by
    rw [Shape.rowMajor_val_four, Shape.rowMajor_val_five]
    show ((i.val * m + r.val) * d + y.val) * e + z.val = (((i.val * b + p.val) * c + q.val) * d + y.val) * e + z.val
    rw [hr, hm]; ring)

/-- [a, b, c, d, e] cast to [a, m, d, e] with m = b·c: (i, r, y, z) reads the operand at (i, p, q, y, z), r = p·c + q. -/
theorem shapeCast_merge5_apply {a m b c d e : ℕ} (x : (⟨5, ![a, b, c, d, e]⟩ : Shape).Idx → α)
    (h : (⟨5, ![a, b, c, d, e]⟩ : Shape).ShapeCasts ⟨4, ![a, m, d, e]⟩)
    (i : Fin a) (r : Fin m) (y : Fin d) (z : Fin e) (p : Fin b) (q : Fin c) (hr : r.val = p.val * c + q.val) (hm : m = b * c) :
    shapeCast ⟨4, ![a, m, d, e]⟩ x h (ix4 i r y z) = x (ix5 i p q y z) :=
  shapeCast_apply x h _ _ (by
    rw [Shape.rowMajor_val_four, Shape.rowMajor_val_five]
    show (((i.val * b + p.val) * c + q.val) * d + y.val) * e + z.val = ((i.val * m + r.val) * d + y.val) * e + z.val
    rw [hr, hm]; ring)

/-- [m, d, e] cast to [b, c, d, e] with m = b·c: (p, q, y, z) reads the operand at (r, y, z), r = p·c + q. -/
theorem shapeCast_split4_apply {m b c d e : ℕ} (x : (⟨3, ![m, d, e]⟩ : Shape).Idx → α)
    (h : (⟨3, ![m, d, e]⟩ : Shape).ShapeCasts ⟨4, ![b, c, d, e]⟩)
    (p : Fin b) (q : Fin c) (y : Fin d) (z : Fin e) (r : Fin m) (hr : r.val = p.val * c + q.val) :
    shapeCast ⟨4, ![b, c, d, e]⟩ x h (ix4 p q y z) = x (ix3 r y z) :=
  shapeCast_apply x h _ _ (by
    rw [Shape.rowMajor_val_four, Shape.rowMajor_val_three]
    show (r.val * d + y.val) * e + z.val = ((p.val * c + q.val) * d + y.val) * e + z.val
    rw [hr])

/-- [b, c, d, e] cast to [m, d, e] with m = b·c: (r, y, z) reads the operand at (p, q, y, z), r = p·c + q. -/
theorem shapeCast_merge4_apply {m b c d e : ℕ} (x : (⟨4, ![b, c, d, e]⟩ : Shape).Idx → α)
    (h : (⟨4, ![b, c, d, e]⟩ : Shape).ShapeCasts ⟨3, ![m, d, e]⟩)
    (r : Fin m) (y : Fin d) (z : Fin e) (p : Fin b) (q : Fin c) (hr : r.val = p.val * c + q.val) :
    shapeCast ⟨3, ![m, d, e]⟩ x h (ix3 r y z) = x (ix4 p q y z) :=
  shapeCast_apply x h _ _ (by
    rw [Shape.rowMajor_val_four, Shape.rowMajor_val_three]
    show ((p.val * c + q.val) * d + y.val) * e + z.val = (r.val * d + y.val) * e + z.val
    rw [hr])

end Idealize.ShloMosaic.ChannelGroups
-- ==== Proof.SpecAt.lean ====
/-
  The aggregation read at one output position, and the reference's term read there.

  `invAt xp w n c y x` is the value at (n, c, y, x): the nine products xp (n, c, y + kh, x + kw) · w (n, c mod 32,
  3·kh + kw, y, x) added in order onto the zero word. `refOut_apply` walks the reference's term down to it: the last
  reshape sends channel c to group c / 32 and member c mod 32, each tap's reshape sends them back to 32·(c / 32) + c mod 32
  = c, its window shifts the last two coordinates by (kh, kw), and the weight plane is read through its unit axes.
-/
import proofs.«174138_j59966333386863_1_alg».proof.Proof.Spec
import proofs.«174138_j59966333386863_1_alg».proof.Proof.LibChannelGroups

noncomputable section

namespace Involution

open Idealize.ShloMosaic Idealize.ShloMosaic.ValueIdx

/-- The zero word's value. -/
def Z : EReal := FloatOps.ofBits (F := Ideal) .f32 0x00000000#32

/-- One product: the padded input at (n, c, y + kh, x + kw) times weight plane 3·kh + kw at (n, c mod 32, ·, y, x). -/
def term (xp : FVec Ideal SP .f32) (w : FVec Ideal SW .f32) (n : Fin 8) (c : Fin 256) (y x : Fin 128) (kh kw : Fin 3) : EReal :=
  xp (ix4 n c (⟨y.val + kh.val, by omega⟩ : Fin 130) (⟨x.val + kw.val, by omega⟩ : Fin 130))
    * w (ix5 n (⟨c.val % 32, by omega⟩ : Fin 32) (⟨3 * kh.val + kw.val, by omega⟩ : Fin 9) y x)

/-- The nine products added in the programs' order onto the zero word. -/
def invAt (xp : FVec Ideal SP .f32) (w : FVec Ideal SW .f32) (n : Fin 8) (c : Fin 256) (y x : Fin 128) : EReal :=
  Z + term xp w n c y x 0 0 + term xp w n c y x 0 1 + term xp w n c y x 0 2
    + term xp w n c y x 1 0 + term xp w n c y x 1 1 + term xp w n c y x 1 2
    + term xp w n c y x 2 0 + term xp w n c y x 2 1 + term xp w n c y x 2 2

/-- Nine products `a kh kw · b kh kw` added in the programs' order onto the zero word. -/
def chain (a b : Fin 3 → Fin 3 → EReal) : EReal :=
  Z + a 0 0 * b 0 0 + a 0 1 * b 0 1 + a 0 2 * b 0 2
    + a 1 0 * b 1 0 + a 1 1 * b 1 1 + a 1 2 * b 1 2
    + a 2 0 * b 2 0 + a 2 1 * b 2 1 + a 2 2 * b 2 2

theorem invAt_eq_chain (xp : FVec Ideal SP .f32) (w : FVec Ideal SW .f32) (n : Fin 8) (c : Fin 256) (y x : Fin 128) :
    invAt xp w n c y x
      = chain (fun kh kw => xp (ix4 n c (⟨y.val + kh.val, by omega⟩ : Fin 130) (⟨x.val + kw.val, by omega⟩ : Fin 130)))
          (fun kh kw => w (ix5 n (⟨c.val % 32, by omega⟩ : Fin 32) (⟨3 * kh.val + kw.val, by omega⟩ : Fin 9) y x)) := rfl

/-- The whole result array. -/
def inv (xp : FVec Ideal SP .f32) (w : FVec Ideal SW .f32) : FVec Ideal SX .f32 :=
  fun j => invAt xp w (j 0) (j 1) (j 2) (j 3)

theorem inv_apply (xp : FVec Ideal SP .f32) (w : FVec Ideal SW .f32) (n : Fin 8) (c : Fin 256) (y x : Fin 128) :
    inv xp w (ix4 n c y x) = invAt xp w n c y x := rfl

/-- One tap of the reference at a position of the grouped array: the running sum there plus the product of the padded
    input at the merged channel and shifted position with the weight plane's entry. The caller names the operands'
    coordinates and owes their arithmetic. -/
theorem tap_apply (kh kw k : Nat) (hp : SP.Slices ![0, 0, kh, kw] SX) (hw : SW.Slices ![0, 0, k, 0, 0] SW1)
    (xp : FVec Ideal SP .f32) (w : FVec Ideal SW .f32) (acc : FVec Ideal SG .f32)
    (n : Fin 8) (g : Fin 8) (wc : Fin 32) (y x : Fin 128) (c : Fin 256) (yy xx : Fin 130) (kk : Fin 9)
    (hc : c.val = g.val * 32 + wc.val) (hyy : yy.val = y.val + kh) (hxx : xx.val = x.val + kw) (hkk : kk.val = k) :
    tap kh kw k hp hw xp w acc (ix5 n g wc y x) = acc (ix5 n g wc y x) + xp (ix4 n c yy xx) * w (ix5 n wc kk y x) := by
  have e1 : shapeCast SG (extractStridedSlice SX ![0, 0, kh, kw] xp hp) castXG (ix5 n g wc y x) = xp (ix4 n c yy xx) := by
    refine (ChannelGroups.shapeCast_split5_apply _ castXG n g wc y x c hc rfl).trans ?_
    · refine extractStridedSlice_apply _ xp hp (ix4 n c y x) (ix4 n c yy xx) fun a => ?_
      match a with
      | ⟨0, _⟩ => show n.val = 0 + n.val; omega
      | ⟨1, _⟩ => show c.val = 0 + c.val; omega
      | ⟨2, _⟩ => show yy.val = kh + y.val; omega
      | ⟨3, _⟩ => show xx.val = kw + x.val; omega
  have e2 : broadcastInDim SG ![0, 1, 2, 3, 4] bcG (broadcastInDim SB ![0, 2, 3, 4] bcW
      (shapeCast SW4 (extractStridedSlice SW1 ![0, 0, k, 0, 0] w hw) castW)) (ix5 n g wc y x) = w (ix5 n wc kk y x) := by
    refine (broadcastInDim_apply _ bcG _ (ix5 n g wc y x) (ix5 n (0 : Fin 1) wc y x) fun a => ?_).trans ?_
    · match a with
      | ⟨0, _⟩ => rfl
      | ⟨1, _⟩ => rfl
      | ⟨2, _⟩ => rfl
      | ⟨3, _⟩ => rfl
      | ⟨4, _⟩ => rfl
    refine (broadcastInDim_apply _ bcW _ (ix5 n (0 : Fin 1) wc y x) (ix4 n wc y x) fun a => ?_).trans ?_
    · match a with
      | ⟨0, _⟩ => rfl
      | ⟨1, _⟩ => rfl
      | ⟨2, _⟩ => rfl
      | ⟨3, _⟩ => rfl
    refine (shapeCast_apply _ castW (ix4 n wc y x) (ix5 n wc (0 : Fin 1) y x) ?_).trans ?_
    · rw [Shape.rowMajor_val_four, Shape.rowMajor_val_five]
      show (((n.val * 32 + wc.val) * 1 + 0) * 128 + y.val) * 128 + x.val = ((n.val * 32 + wc.val) * 128 + y.val) * 128 + x.val
      omega
    · refine extractStridedSlice_apply _ w hw (ix5 n wc (0 : Fin 1) y x) (ix5 n wc kk y x) fun a => ?_
      match a with
      | ⟨0, _⟩ => show n.val = 0 + n.val; omega
      | ⟨1, _⟩ => show wc.val = 0 + wc.val; omega
      | ⟨2, _⟩ => show kk.val = k + 0; omega
      | ⟨3, _⟩ => show y.val = 0 + y.val; omega
      | ⟨4, _⟩ => show x.val = 0 + x.val; omega
  show acc (ix5 n g wc y x) + _ * _ = _
  exact congrArg₂ (· + ·) rfl (congrArg₂ (· * ·) e1 e2)

/-- The reference's term at (n, c, y, x) is the nine products added in order onto the zero word. -/
theorem refOut_apply (xp : FVec Ideal SP .f32) (w : FVec Ideal SW .f32) (n : Fin 8) (c : Fin 256) (y x : Fin 128) :
    refOut xp w (ix4 n c y x) = invAt xp w n c y x := by
  have hg : c.val / 32 < 8 := by omega
  have hm : c.val % 32 < 32 := by omega
  have hc : c.val = (⟨c.val / 32, hg⟩ : Fin 8).val * 32 + (⟨c.val % 32, hm⟩ : Fin 32).val := by
    show c.val = c.val / 32 * 32 + c.val % 32; omega
  unfold refOut
  refine (ChannelGroups.shapeCast_merge5_apply _ castGX n c y x (⟨c.val / 32, hg⟩ : Fin 8) (⟨c.val % 32, hm⟩ : Fin 32) hc rfl).trans ?_
  rw [tap_apply 2 2 8 _ _ xp w _ n _ _ y x c ⟨y.val + 2, by omega⟩ ⟨x.val + 2, by omega⟩ ⟨8, by omega⟩ hc rfl rfl rfl,
    tap_apply 2 1 7 _ _ xp w _ n _ _ y x c ⟨y.val + 2, by omega⟩ ⟨x.val + 1, by omega⟩ ⟨7, by omega⟩ hc rfl rfl rfl,
    tap_apply 2 0 6 _ _ xp w _ n _ _ y x c ⟨y.val + 2, by omega⟩ ⟨x.val + 0, by omega⟩ ⟨6, by omega⟩ hc rfl rfl rfl,
    tap_apply 1 2 5 _ _ xp w _ n _ _ y x c ⟨y.val + 1, by omega⟩ ⟨x.val + 2, by omega⟩ ⟨5, by omega⟩ hc rfl rfl rfl,
    tap_apply 1 1 4 _ _ xp w _ n _ _ y x c ⟨y.val + 1, by omega⟩ ⟨x.val + 1, by omega⟩ ⟨4, by omega⟩ hc rfl rfl rfl,
    tap_apply 1 0 3 _ _ xp w _ n _ _ y x c ⟨y.val + 1, by omega⟩ ⟨x.val + 0, by omega⟩ ⟨3, by omega⟩ hc rfl rfl rfl,
    tap_apply 0 2 2 _ _ xp w _ n _ _ y x c ⟨y.val + 0, by omega⟩ ⟨x.val + 2, by omega⟩ ⟨2, by omega⟩ hc rfl rfl rfl,
    tap_apply 0 1 1 _ _ xp w _ n _ _ y x c ⟨y.val + 0, by omega⟩ ⟨x.val + 1, by omega⟩ ⟨1, by omega⟩ hc rfl rfl rfl,
    tap_apply 0 0 0 _ _ xp w _ n _ _ y x c ⟨y.val + 0, by omega⟩ ⟨x.val + 0, by omega⟩ ⟨0, by omega⟩ hc rfl rfl rfl]
  rfl

end Involution

end
-- ==== Proof.KernelBody.lean ====
/-
  What the kernel's body leaves in its output block, read at one position.

  At a grid point (n, q, h) the body loads rows 32·h … 32·h + 33 of its padded-input block (64 channels) and rows
  32·h … 32·h + 31 of the weight block, views the 64 channels as 2 groups of 32, and adds nine products onto zeros: the
  loaded input shifted by (kh, kw) times weight plane 3·kh + kw repeated over the two groups. `body_apply` reads the
  stored value at block position (0, cl, y, x): channel cl is member cl mod 32 of group cl / 32.
-/
import proofs.«174138_j59966333386863_1_alg».proof.Proof.Gen.KernelIdeal.Frame
import proofs.«174138_j59966333386863_1_alg».proof.Proof.SpecAt
import proofs.«174138_j59966333386863_1_alg».proof.Proof.LibChannelGroups
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Hand

open Cert.KernelIdeal Cert.KernelIdeal.Gen

variable {F : FTy → Type} [FloatOps F]

theorem hz4 : (![0, 0, 0, 0] : Fin 4 → Nat) = fun _ => 0 := funext fun a => by fin_cases a <;> rfl

/-- One tap of the body: the running sum plus the loaded input shifted by (kh, kw) times weight plane k, the plane's
    unit axis dropped and the plane repeated over the two groups. -/
def ktap (kh kw k : Nat) (hp : S2x32x34x130.Slices ![0, 0, kh, kw] S2x32x32x128) (hw : S32x9x32x128.Slices ![0, k, 0, 0] S32x1x32x128)
    (v8 : FVec F S2x32x34x130 .f32) (v7 : FVec F S32x9x32x128 .f32) (acc : FVec F S2x32x32x128 .f32) : FVec F S2x32x32x128 .f32 :=
  addf acc (mulf (extractStridedSlice S2x32x32x128 ![0, 0, kh, kw] v8 hp)
    (broadcastTo S2x32x32x128 (shapeCast S1x32x32x128 (shapeCast S32x32x128 (extractStridedSlice S32x1x32x128 ![0, k, 0, 0] v7 hw)
      shapeCasts_S32x1x32x128_S32x32x128) shapeCasts_S32x32x128_S1x32x32x128) broadcasts_S1x32x32x128_S2x32x32x128))

/-- The body's stored value as a function of its two loads. -/
def stored (v3 : Vec F S1x64x34x130 .f32) (v6 : Vec F S1x32x9x32x128 .f32) : FVec F S1x64x32x128 .f32 :=
  shapeCast S1x64x32x128 (shapeCast S64x32x128
    (ktap 2 2 8 slices_S2x32x34x130_o0_0_2_2_S2x32x32x128 slices_S32x9x32x128_o0_8_0_0_S32x1x32x128 (k0_pay3 v3) (k0_pay2 v6)
    (ktap 2 1 7 slices_S2x32x34x130_o0_0_2_1_S2x32x32x128 slices_S32x9x32x128_o0_7_0_0_S32x1x32x128 (k0_pay3 v3) (k0_pay2 v6)
    (ktap 2 0 6 slices_S2x32x34x130_o0_0_2_0_S2x32x32x128 slices_S32x9x32x128_o0_6_0_0_S32x1x32x128 (k0_pay3 v3) (k0_pay2 v6)
    (ktap 1 2 5 slices_S2x32x34x130_o0_0_1_2_S2x32x32x128 slices_S32x9x32x128_o0_5_0_0_S32x1x32x128 (k0_pay3 v3) (k0_pay2 v6)
    (ktap 1 1 4 slices_S2x32x34x130_o0_0_1_1_S2x32x32x128 slices_S32x9x32x128_o0_4_0_0_S32x1x32x128 (k0_pay3 v3) (k0_pay2 v6)
    (ktap 1 0 3 slices_S2x32x34x130_o0_0_1_0_S2x32x32x128 slices_S32x9x32x128_o0_3_0_0_S32x1x32x128 (k0_pay3 v3) (k0_pay2 v6)
    (ktap 0 2 2 slices_S2x32x34x130_o0_0_0_2_S2x32x32x128 slices_S32x9x32x128_o0_2_0_0_S32x1x32x128 (k0_pay3 v3) (k0_pay2 v6)
    (ktap 0 1 1 slices_S2x32x34x130_o0_0_0_1_S2x32x32x128 slices_S32x9x32x128_o0_1_0_0_S32x1x32x128 (k0_pay3 v3) (k0_pay2 v6)
    (ktap 0 0 0 slices_S2x32x34x130_o0_0_0_0_S2x32x32x128 slices_S32x9x32x128_o0_0_0_0_S32x1x32x128 (k0_pay3 v3) (k0_pay2 v6)
      (broadcast S2x32x32x128 (Scalar.ofBits .f32 0x00000000#32)))))))))))
    shapeCasts_S2x32x32x128_S64x32x128) shapeCasts_S64x32x128_S1x64x32x128

/-- The printed payloads, composed, are that function. -/
theorem pay_eq (v3 : Vec F S1x64x34x130 .f32) (v6 : Vec F S1x32x9x32x128 .f32) :
    k0_pay1 (k0_pay2 v6) (k0_pay3 v3) (k0_pay4 v3 v6) (k0_pay5 v3) (k0_pay6 v6) = stored v3 v6 := rfl

/-- The body's two loads: the rows of the input block and of the weight block that the grid point's row tile needs. -/
def loadX (i : grid0.Coords) (x0 : Vec F S1x64x130x130 .f32) : Vec F S1x64x34x130 .f32 :=
  fun y => x0 ((Rect.unit (s := S1x64x130x130) (k0_off1 i) S1x64x34x130.size (k0_off1_inb i)).toLoadRect.idx y)
def loadW (i : grid0.Coords) (x1 : Vec F S1x32x9x128x128 .f32) : Vec F S1x32x9x32x128 .f32 :=
  fun y => x1 ((Rect.unit (s := S1x32x9x128x128) (k0_off2 i) S1x32x9x32x128.size (k0_off2_inb i)).toLoadRect.idx y)

/-- What the run leaves in the output's staging buffer is the stored value of the two loads of the input blocks. -/
theorem out_eq (c : Dev nD) (i : grid0.Coords) (arg3 : Memref sig .tc .vmem S1x64x130x130 .f32) (harg3 : arg3.IsWhole) (arg4 : Memref sig .tc .vmem S1x32x9x128x128 .f32) (harg4 : arg4.IsWhole) (arg5 : Memref sig .tc .vmem S1x64x32x128 .f32) (harg5 : arg5.IsWhole)
    (x0 : Vec F S1x64x130x130 .f32) (x1 : Vec F S1x32x9x128x128 .f32) :
    out0_A_2 c i arg3 harg3 arg4 harg4 arg5 harg5 x0 x1 = stored (loadX i x0) (loadW i x1) := by
  unfold out0_A_2
  rw [View.read_writes_eq_canon _ _ _ (cover0_A_2 c i arg3 harg3 arg4 harg4 arg5 harg5 x0 x1)]
  unfold kernelRun0_A
  dsimp only
  sl_unfold_run_names
  rw [View.canon_unit_zero hz4]
  have e3 : ∀ r : LoadRect S1x64x130x130, View.readAt (Elt F) arg3.view r (harg3.unread x0) = fun y => x0 (r.idx y) :=
    fun r => funext fun y => by rw [View.readAt_apply, harg3.read_unread]
  have e4 : ∀ r : LoadRect S1x32x9x128x128, View.readAt (Elt F) arg4.view r (harg4.unread x1) = fun y => x1 (r.idx y) :=
    fun r => funext fun y => by rw [View.readAt_apply, harg4.read_unread]
  rw [e3, e4]
  rfl

/-! ## The stored value at a position (extended reals) -/

/-- One tap of the body at a position: the running sum there plus the loaded input at the shifted position times the
    weight plane's entry. The caller names the operands' coordinates and owes their arithmetic. -/
theorem ktap_apply (kh kw k : Nat) (hp : S2x32x34x130.Slices ![0, 0, kh, kw] S2x32x32x128) (hw : S32x9x32x128.Slices ![0, k, 0, 0] S32x1x32x128)
    (v8 : FVec Ideal S2x32x34x130 .f32) (v7 : FVec Ideal S32x9x32x128 .f32) (acc : FVec Ideal S2x32x32x128 .f32)
    (g : Fin 2) (wc : Fin 32) (y : Fin 32) (x : Fin 128) (yy : Fin 34) (xx : Fin 130) (kk : Fin 9)
    (hyy : yy.val = y.val + kh) (hxx : xx.val = x.val + kw) (hkk : kk.val = k) :
    ktap kh kw k hp hw v8 v7 acc (ix4 g wc y x) = acc (ix4 g wc y x) + v8 (ix4 g wc yy xx) * v7 (ix4 wc kk y x) := by
  have e1 : extractStridedSlice S2x32x32x128 ![0, 0, kh, kw] v8 hp (ix4 g wc y x) = v8 (ix4 g wc yy xx) := by
    refine extractStridedSlice_apply _ v8 hp (ix4 g wc y x) (ix4 g wc yy xx) fun a => ?_
    match a with
    | ⟨0, _⟩ => show g.val = 0 + g.val; omega
    | ⟨1, _⟩ => show wc.val = 0 + wc.val; omega
    | ⟨2, _⟩ => show yy.val = kh + y.val; omega
    | ⟨3, _⟩ => show xx.val = kw + x.val; omega
  have e2 : broadcastTo S2x32x32x128 (shapeCast S1x32x32x128 (shapeCast S32x32x128 (extractStridedSlice S32x1x32x128 ![0, k, 0, 0] v7 hw)
      shapeCasts_S32x1x32x128_S32x32x128) shapeCasts_S32x32x128_S1x32x32x128) broadcasts_S1x32x32x128_S2x32x32x128 (ix4 g wc y x)
      = v7 (ix4 wc kk y x) := by
    refine (broadcastTo_apply _ broadcasts_S1x32x32x128_S2x32x32x128 (ix4 g wc y x) (ix4 (0 : Fin 1) wc y x) fun a => ?_).trans ?_
    · match a with
      | ⟨0, _⟩ => rfl
      | ⟨1, _⟩ => rfl
      | ⟨2, _⟩ => rfl
      | ⟨3, _⟩ => rfl
    refine (shapeCast_apply _ shapeCasts_S32x32x128_S1x32x32x128 (ix4 (0 : Fin 1) wc y x) (ix3 wc y x) ?_).trans ?_
    · rw [Shape.rowMajor_val_four, Shape.rowMajor_val_three]
      show (wc.val * 32 + y.val) * 128 + x.val = ((0 * 32 + wc.val) * 32 + y.val) * 128 + x.val
      omega
    refine (shapeCast_apply _ shapeCasts_S32x1x32x128_S32x32x128 (ix3 wc y x) (ix4 wc (0 : Fin 1) y x) ?_).trans ?_
    · rw [Shape.rowMajor_val_four, Shape.rowMajor_val_three]
      show ((wc.val * 1 + 0) * 32 + y.val) * 128 + x.val = (wc.val * 32 + y.val) * 128 + x.val
      omega
    refine extractStridedSlice_apply _ v7 hw (ix4 wc (0 : Fin 1) y x) (ix4 wc kk y x) fun a => ?_
    match a with
    | ⟨0, _⟩ => show wc.val = 0 + wc.val; omega
    | ⟨1, _⟩ => show kk.val = k + 0; omega
    | ⟨2, _⟩ => show y.val = 0 + y.val; omega
    | ⟨3, _⟩ => show x.val = 0 + x.val; omega
  show acc (ix4 g wc y x) + _ * _ = _
  exact congrArg₂ (· + ·) rfl (congrArg₂ (· * ·) e1 e2)

/-- The loaded input viewed as 2 groups of 32 channels: member wc of group g is channel 32·g + wc. -/
theorem pay3_apply (v3 : Vec Ideal S1x64x34x130 .f32) (g : Fin 2) (wc : Fin 32) (c : Fin 64) (hc : c.val = g.val * 32 + wc.val)
    (yy : Fin 34) (xx : Fin 130) : k0_pay3 v3 (ix4 g wc yy xx) = v3 (ix4 (0 : Fin 1) c yy xx) := by
  unfold k0_pay3
  refine (ChannelGroups.shapeCast_split4_apply _ shapeCasts_S64x34x130_S2x32x34x130 g wc yy xx c hc).trans ?_
  refine shapeCast_apply _ shapeCasts_S1x64x34x130_S64x34x130 (ix3 c yy xx) (ix4 (0 : Fin 1) c yy xx) ?_
  rw [Shape.rowMajor_val_four, Shape.rowMajor_val_three]
  show ((0 * 64 + c.val) * 34 + yy.val) * 130 + xx.val = (c.val * 34 + yy.val) * 130 + xx.val
  omega

/-- The loaded weights with the block's unit axis dropped. -/
theorem pay2_apply (v6 : Vec Ideal S1x32x9x32x128 .f32) (wc : Fin 32) (kk : Fin 9) (y : Fin 32) (x : Fin 128) :
    k0_pay2 v6 (ix4 wc kk y x) = v6 (ix5 (0 : Fin 1) wc kk y x) := by
  unfold k0_pay2
  refine shapeCast_apply _ shapeCasts_S1x32x9x32x128_S32x9x32x128 (ix4 wc kk y x) (ix5 (0 : Fin 1) wc kk y x) ?_
  rw [Shape.rowMajor_val_five, Shape.rowMajor_val_four]
  show ((((0 * 32 + wc.val) * 9 + kk.val) * 32 + y.val) * 128 + x.val) = ((wc.val * 9 + kk.val) * 32 + y.val) * 128 + x.val
  omega

/-- The stored value at block position (0, cl, y, x): nine products of the loaded input at (cl, y + kh, x + kw) and the
    loaded weights at (cl mod 32, 3·kh + kw, y, x), added in order onto the zero word. -/
theorem stored_apply (v3 : Vec Ideal S1x64x34x130 .f32) (v6 : Vec Ideal S1x32x9x32x128 .f32) (cl : Fin 64) (y : Fin 32) (x : Fin 128) :
    stored v3 v6 (ix4 (0 : Fin 1) cl y x)
      = Involution.chain (fun kh kw => v3 (ix4 (0 : Fin 1) cl (⟨y.val + kh.val, by omega⟩ : Fin 34) (⟨x.val + kw.val, by omega⟩ : Fin 130)))
          (fun kh kw => v6 (ix5 (0 : Fin 1) (⟨cl.val % 32, by omega⟩ : Fin 32) (⟨3 * kh.val + kw.val, by omega⟩ : Fin 9) y x)) := by
  have hg : cl.val / 32 < 2 := by omega
  have hm : cl.val % 32 < 32 := by omega
  have hc : cl.val = (⟨cl.val / 32, hg⟩ : Fin 2).val * 32 + (⟨cl.val % 32, hm⟩ : Fin 32).val := by
    show cl.val = cl.val / 32 * 32 + cl.val % 32; omega
  unfold stored
  refine (shapeCast_apply _ shapeCasts_S64x32x128_S1x64x32x128 (ix4 (0 : Fin 1) cl y x) (ix3 cl y x) ?_).trans ?_
  · rw [Shape.rowMajor_val_four, Shape.rowMajor_val_three]
    show (cl.val * 32 + y.val) * 128 + x.val = ((0 * 64 + cl.val) * 32 + y.val) * 128 + x.val
    omega
  refine (ChannelGroups.shapeCast_merge4_apply _ shapeCasts_S2x32x32x128_S64x32x128 cl y x (⟨cl.val / 32, hg⟩ : Fin 2) (⟨cl.val % 32, hm⟩ : Fin 32) hc).trans ?_
  rw [ktap_apply 2 2 8 _ _ _ _ _ _ _ y x ⟨y.val + 2, by omega⟩ ⟨x.val + 2, by omega⟩ ⟨8, by omega⟩ rfl rfl rfl,
    ktap_apply 2 1 7 _ _ _ _ _ _ _ y x ⟨y.val + 2, by omega⟩ ⟨x.val + 1, by omega⟩ ⟨7, by omega⟩ rfl rfl rfl,
    ktap_apply 2 0 6 _ _ _ _ _ _ _ y x ⟨y.val + 2, by omega⟩ ⟨x.val + 0, by omega⟩ ⟨6, by omega⟩ rfl rfl rfl,
    ktap_apply 1 2 5 _ _ _ _ _ _ _ y x ⟨y.val + 1, by omega⟩ ⟨x.val + 2, by omega⟩ ⟨5, by omega⟩ rfl rfl rfl,
    ktap_apply 1 1 4 _ _ _ _ _ _ _ y x ⟨y.val + 1, by omega⟩ ⟨x.val + 1, by omega⟩ ⟨4, by omega⟩ rfl rfl rfl,
    ktap_apply 1 0 3 _ _ _ _ _ _ _ y x ⟨y.val + 1, by omega⟩ ⟨x.val + 0, by omega⟩ ⟨3, by omega⟩ rfl rfl rfl,
    ktap_apply 0 2 2 _ _ _ _ _ _ _ y x ⟨y.val + 0, by omega⟩ ⟨x.val + 2, by omega⟩ ⟨2, by omega⟩ rfl rfl rfl,
    ktap_apply 0 1 1 _ _ _ _ _ _ _ y x ⟨y.val + 0, by omega⟩ ⟨x.val + 1, by omega⟩ ⟨1, by omega⟩ rfl rfl rfl,
    ktap_apply 0 0 0 _ _ _ _ _ _ _ y x ⟨y.val + 0, by omega⟩ ⟨x.val + 0, by omega⟩ ⟨0, by omega⟩ rfl rfl rfl]
  simp only [pay3_apply v3 _ _ cl hc, pay2_apply v6]
  rfl

end Cert.KernelIdeal.Hand

end
-- ==== Proof.KernelArray.lean ====
/-
  The kernel's result array after the run, as one function of the arrays the region finds.

  The grid is (n, q, h) ∈ 8 × 4 × 4. Point (n, q, h) stages block (n, q, 0, 0) of the padded input ([1, 64, 130, 130]),
  block (n, 0, 0, 0, 0) of the weights ([1, 32, 9, 128, 128]) and writes back block (n, q, h, 0) of the result
  ([1, 64, 32, 128]); the body reads rows 32·h … of both staged blocks. So the value it leaves at block position
  (0, cl, y, x) is the aggregation at array position (n, 64·q + cl, 32·h + y, x), and the 128 result blocks tile the
  array. The padded input the region finds is the host's padding of the first argument.
-/
import proofs.«174138_j59966333386863_1_alg».proof.Proof.Gen.KernelIdeal.Value
import proofs.«174138_j59966333386863_1_alg».proof.Proof.KernelBody
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Hand

open Cert.KernelIdeal Cert.KernelIdeal.Gen Cert.KernelIdeal.Value

/-- The printed index maps over the grid: the input block follows the result block on the batch and channel axes, the
    weight block on the batch axis only; the result block's row-tile index is the grid's last coordinate. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 5) = win0_2.index t (0 : Fin 4) ∧ win0_1.index t (1 : Fin 5) = 0 ∧ win0_1.index t (2 : Fin 5) = 0
    ∧ win0_1.index t (3 : Fin 5) = 0 ∧ win0_1.index t (4 : Fin 5) = 0
    ∧ win0_2.index t (2 : Fin 4) = (grid0.coords t 2).val ∧ win0_2.index t (3 : Fin 4) = 0
    ∧ win0_2.index t (0 : Fin 4) < 8 ∧ win0_2.index t (1 : Fin 4) < 4 ∧ win0_2.index t (2 : Fin 4) < 4 :=
  (by decide +kernel : ∀ t : Fin grid0.N, _)

/-- Every result block is some point's. -/
theorem idx_onto : ∀ (q0 : Fin 8) (q1 : Fin 4) (q2 : Fin 4), ∃ t : Fin cfg0.N, win0_2.index t = ![q0.val, q1.val, q2.val, 0] :=
  (by decide +kernel : ∀ (q0 : Fin 8) (q1 : Fin 4) (q2 : Fin 4), ∃ t : Fin grid0.N, win0_2.index t = ![q0.val, q1.val, q2.val, 0])

section Generic
variable {F : FTy → Type} [FloatOps F]
variable (m : (ℓ : Loc nD τ sig) → Buf (Elt F) ℓ) (ρ : Dev nD → PrngReg)

/-- The load of the staged input block reads it 32·h rows down. -/
theorem loadX_apply (i : grid0.Coords) (x0 : Vec F S1x64x130x130 .f32) (cl : Fin 64) (yy : Fin 34) (xx : Fin 130) (YY : Fin 130)
    (hY : YY.val = 32 * (i 2).val + yy.val) : loadX i x0 (ix4 (0 : Fin 1) cl yy xx) = x0 (ix4 (0 : Fin 1) cl YY xx) := by
  unfold loadX
  refine congrArg x0 (funext fun a => Fin.ext ?_)
  rw [LoadRect.idx_apply, Rect.off_unit, Rect.stride_unit]
  match a with
  | ⟨0, _⟩ => show k0_off1 i (0 : Fin 4) + 1 * 0 = 0; rw [k0_off1_eq i]; show 0 + 1 * 0 = 0; omega
  | ⟨1, _⟩ => show k0_off1 i (1 : Fin 4) + 1 * cl.val = cl.val; rw [k0_off1_eq i]; show 0 + 1 * cl.val = cl.val; omega
  | ⟨2, _⟩ => show k0_off1 i (2 : Fin 4) + 1 * yy.val = YY.val; rw [k0_off1_eq i]; show 32 * (i 2).val + 1 * yy.val = YY.val; omega
  | ⟨3, _⟩ => show k0_off1 i (3 : Fin 4) + 1 * xx.val = xx.val; rw [k0_off1_eq i]; show 0 + 1 * xx.val = xx.val; omega

/-- The load of the staged weight block reads it 32·h rows down. -/
theorem loadW_apply (i : grid0.Coords) (x1 : Vec F S1x32x9x128x128 .f32) (wc : Fin 32) (kk : Fin 9) (y : Fin 32) (x : Fin 128) (Y : Fin 128)
    (hY : Y.val = 32 * (i 2).val + y.val) : loadW i x1 (ix5 (0 : Fin 1) wc kk y x) = x1 (ix5 (0 : Fin 1) wc kk Y x) := by
  unfold loadW
  refine congrArg x1 (funext fun a => Fin.ext ?_)
  rw [LoadRect.idx_apply, Rect.off_unit, Rect.stride_unit]
  match a with
  | ⟨0, _⟩ => show k0_off2 i (0 : Fin 5) + 1 * 0 = 0; rw [k0_off2_eq i]; show 0 + 1 * 0 = 0; omega
  | ⟨1, _⟩ => show k0_off2 i (1 : Fin 5) + 1 * wc.val = wc.val; rw [k0_off2_eq i]; show 0 + 1 * wc.val = wc.val; omega
  | ⟨2, _⟩ => show k0_off2 i (2 : Fin 5) + 1 * kk.val = kk.val; rw [k0_off2_eq i]; show 0 + 1 * kk.val = kk.val; omega
  | ⟨3, _⟩ => show k0_off2 i (3 : Fin 5) + 1 * y.val = Y.val; rw [k0_off2_eq i]; show 32 * (i 2).val + 1 * y.val = Y.val; omega
  | ⟨4, _⟩ => show k0_off2 i (4 : Fin 5) + 1 * x.val = x.val; rw [k0_off2_eq i]; show 0 + 1 * x.val = x.val; omega

/-- The staged input block at point t is channels 64·q … 64·q + 63 of batch entry n of the padded input. -/
theorem iblk0_apply (c : Dev nD) (t : Fin cfg0.N) (cl : Fin 64) (yy xx : Fin 130) (n : Fin 8) (C : Fin 256)
    (hn : n.val = win0_2.index t (0 : Fin 4)) (hC : C.val = win0_2.index t (1 : Fin 4) * 64 + cl.val) :
    (iblk m c 0 t : Vec F S1x64x130x130 .f32) (ix4 (0 : Fin 1) cl yy xx)
      = (V m c main_v0 : S8x256x130x130.Idx → Elt F .f32) (ix4 n C yy xx) := by
  obtain ⟨e0, e1, e2, e3, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 4) * 1 + 1 * 0 = n.val; omega
  | ⟨1, _⟩ => show win0_0.index t (1 : Fin 4) * 64 + 1 * cl.val = C.val; omega
  | ⟨2, _⟩ => show win0_0.index t (2 : Fin 4) * 130 + 1 * yy.val = yy.val; omega
  | ⟨3, _⟩ => show win0_0.index t (3 : Fin 4) * 130 + 1 * xx.val = xx.val; omega

/-- The staged weight block at point t is batch entry n of the weights. -/
theorem iblk1_apply (c : Dev nD) (t : Fin cfg0.N) (wc : Fin 32) (kk : Fin 9) (Y X : Fin 128) (n : Fin 8)
    (hn : n.val = win0_2.index t (0 : Fin 4)) :
    (iblk m c 1 t : Vec F S1x32x9x128x128 .f32) (ix5 (0 : Fin 1) wc kk Y X)
      = (V m c main_arg1 : S8x32x9x128x128.Idx → Elt F .f32) (ix5 n wc kk Y X) := by
  obtain ⟨-, -, -, -, e0, e1, e2, e3, e4, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 5) * 1 + 1 * 0 = n.val; omega
  | ⟨1, _⟩ => show win0_1.index t (1 : Fin 5) * 32 + 1 * wc.val = wc.val; omega
  | ⟨2, _⟩ => show win0_1.index t (2 : Fin 5) * 9 + 1 * kk.val = kk.val; omega
  | ⟨3, _⟩ => show win0_1.index t (3 : Fin 5) * 128 + 1 * Y.val = Y.val; omega
  | ⟨4, _⟩ => show win0_1.index t (4 : Fin 5) * 128 + 1 * X.val = X.val; omega

attribute [local irreducible] concatenate extractStridedSlice Host.reverse in
set_option maxRecDepth 8192 in
set_option maxHeartbeats 1000000 in
/-- The padded input the region finds is the host's padding of the first argument: the host operations before the region,
    composed, are that function (the slices, reversals and concatenations are never opened). -/
theorem V_pad (c : Dev nD) :
    (V m c main_v0 : S8x256x130x130.Idx → Elt F .f32) = Involution.pad (m ((c : Thread nD τ).loc main_arg0)) := by
  dsimp only [Gen.V]
  simp only [hostOps0, hostOps0_1, List.flatten_cons, List.flatten_nil, List.append_nil, List.cons_append, List.nil_append]
  after_results
  rfl

end Generic

section AtIdeal
variable (m : (ℓ : Loc nD τ sig) → Buf (Elt Ideal) ℓ) (ρ : Dev nD → PrngReg)

/-- The value the body leaves at block position j of point t is the aggregation, over the padded input and the weights
    the region finds, at the array position under j. -/
theorem stored_block (c : Dev nD) (t : Fin cfg0.N) (u : Fin 1) (cl : Fin 64) (y : Fin 32) (x : Fin 128) :
    stored (loadX (grid0.coords t) (iblk m c 0 t)) (loadW (grid0.coords t) (iblk m c 1 t)) (ix4 u cl y x)
      = Involution.inv (V m c main_v0) (V m c main_arg1) (((cfg0.win 2).blk t).view.emb (ix4 u cl y x)) := by
  obtain rfl : u = 0 := Subsingleton.elim _ _
  obtain ⟨-, -, -, -, -, -, -, -, -, f2, f3, b0, b1, b2⟩ := idx_facts t
  have hemb : ((cfg0.win 2).blk t).view.emb (ix4 (0 : Fin 1) cl y x)
      = ix4 (⟨win0_2.index t (0 : Fin 4), b0⟩ : Fin 8) (⟨win0_2.index t (1 : Fin 4) * 64 + cl.val, by omega⟩ : Fin 256)
          (⟨win0_2.index t (2 : Fin 4) * 32 + y.val, by omega⟩ : Fin 128) x := by
    funext a; apply Fin.ext
    match a with
    | ⟨0, _⟩ => show win0_2.index t (0 : Fin 4) * 1 + 1 * 0 = win0_2.index t (0 : Fin 4); omega
    | ⟨1, _⟩ => show win0_2.index t (1 : Fin 4) * 64 + 1 * cl.val = win0_2.index t (1 : Fin 4) * 64 + cl.val; omega
    | ⟨2, _⟩ => show win0_2.index t (2 : Fin 4) * 32 + 1 * y.val = win0_2.index t (2 : Fin 4) * 32 + y.val; omega
    | ⟨3, _⟩ => show win0_2.index t (3 : Fin 4) * 128 + 1 * x.val = x.val; omega
  rw [hemb, Involution.inv_apply, Involution.invAt_eq_chain, stored_apply]
  refine congrArg₂ Involution.chain (funext fun kh => funext fun kw => ?_) (funext fun kh => funext fun kw => ?_)
  · have hkh : kh.val < 3 := kh.isLt
    have hkw : kw.val < 3 := kw.isLt
    refine (loadX_apply (grid0.coords t) (iblk m c 0 t) cl _ _
      (⟨win0_2.index t (2 : Fin 4) * 32 + y.val + kh.val, by omega⟩ : Fin 130) ?_).trans ?_
    · show win0_2.index t (2 : Fin 4) * 32 + y.val + kh.val = 32 * (grid0.coords t 2).val + (y.val + kh.val); omega
    · exact iblk0_apply m c t cl _ _ _ _ rfl rfl
  · have hkh : kh.val < 3 := kh.isLt
    have hkw : kw.val < 3 := kw.isLt
    refine (loadW_apply (grid0.coords t) (iblk m c 1 t) _ _ y x
      (⟨win0_2.index t (2 : Fin 4) * 32 + y.val, by omega⟩ : Fin 128) ?_).trans ?_
    · show win0_2.index t (2 : Fin 4) * 32 + y.val = 32 * (grid0.coords t 2).val + y.val; omega
    · refine (iblk1_apply m c t _ _ _ x (⟨win0_2.index t (0 : Fin 4), b0⟩ : Fin 8) rfl).trans ?_
      refine congrArg (V m c main_arg1) ?_
      refine congrArg (fun wc : Fin 32 => ix5 (⟨win0_2.index t (0 : Fin 4), b0⟩ : Fin 8) wc
        (⟨3 * kh.val + kw.val, by omega⟩ : Fin 9) (⟨win0_2.index t (2 : Fin 4) * 32 + y.val, by omega⟩ : Fin 128) x) (Fin.ext ?_)
      show cl.val % 32 = (win0_2.index t (1 : Fin 4) * 64 + cl.val) % 32; omega

/-- What point t writes back is block t of the aggregation over the padded input and the weights the region finds. -/
theorem flushed_eq (c : Dev nD) (t : Fin cfg0.N) :
    (dats m 0 c).flushed 2 t
      = ((cfg0.win 2).blk t).view.read (Elt Ideal) (Involution.inv (V m c main_v0) (V m c main_arg1)) := by
  rw [flushed2_A, out_eq]
  funext j
  obtain ⟨u, cl, y, x, rfl⟩ : ∃ (u : Fin 1) (cl : Fin 64) (y : Fin 32) (x : Fin 128), j = ix4 u cl y x :=
    ⟨j 0, j 1, j 2, j 3, eq_ix4 j⟩
  exact stored_block m c t u cl y x

/-- An index of the result array is in point t's block iff each coordinate is in the block's range on its axis. -/
theorem mem_blk (t : Fin cfg0.N) (i : S8x256x128x128.Idx) :
    i ∈ ((cfg0.win 2).blk t).view.set ↔ ∀ a : Fin 4, win0_2.index t a * S1x64x32x128.size a ≤ (i a).val ∧ (i a).val < win0_2.index t a * S1x64x32x128.size a + S1x64x32x128.size a := by
  show i ∈ ((View.whole main_v1).slice (win0_2.rect t)).set ↔ _
  rw [View.set_slice_whole, Rect.mem_set_unit]
  exact Iff.rfl

/-- The 8 × 4 × 4 result blocks tile the array: position (n, c, Y, X) is in the block of the point that writes block
    (n, c / 64, Y / 32, 0). -/
theorem cover (i : S8x256x128x128.Idx) : ∃ t : Fin cfg0.N, (cfg0.win 2).flush t = true ∧ i ∈ ((cfg0.win 2).blk t).view.set := by
  have h0 : (i 0).val < 8 := (i 0).isLt
  have h1 : (i 1).val < 256 := (i 1).isLt
  have h2 : (i 2).val < 128 := (i 2).isLt
  have h3 : (i 3).val < 128 := (i 3).isLt
  obtain ⟨t, ht⟩ := idx_onto ⟨(i 0).val, h0⟩ ⟨(i 1).val / 64, by omega⟩ ⟨(i 2).val / 32, by omega⟩
  have q0 : win0_2.index t (0 : Fin 4) = (i 0).val := congrFun ht 0
  have q1 : win0_2.index t (1 : Fin 4) = (i 1).val / 64 := congrFun ht 1
  have q2 : win0_2.index t (2 : Fin 4) = (i 2).val / 32 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 32 ≤ (i 2).val ∧ (i 2).val < win0_2.index t (2 : Fin 4) * 32 + 32; omega
  | ⟨3, _⟩ => show win0_2.index t (3 : Fin 4) * 128 ≤ (i 3).val ∧ (i 3).val < win0_2.index t (3 : Fin 4) * 128 + 128; omega

/-- The result array after the run: the aggregation over the host's padding of the first argument and the second. -/
theorem final (c : Dev nD) : (dats m 0 c).arrAt 2 cfg0.N
    = Involution.inv (Involution.pad (m ((c : Thread nD τ).loc main_arg0))) (m ((c : Thread nD τ).loc main_arg1)) := by
  rw [← V_pad m c, ← V_main_arg1 m c]
  exact (dats m 0 c).arrAt_eq_of_cover 2 _ (fun t _ => flushed_eq m c t) cover

/-- The kernel program's run, read: the result array at the aggregation, the arguments unchanged. -/
theorem run : θ_run defs (onTc (τ := τ) (main (F := Ideal))) ⟨m, fun _ => 0, ρ⟩ fun r => ∀ c : Dev nD,
      r.2.mem ((c : Thread nD τ).loc main_v1)
          = Involution.inv (Involution.pad (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end AtIdeal

end Cert.KernelIdeal.Hand

end
-- ==== Proof.RefOps.lean ====
/-
  The reference program's 128 operations, in order, as lists: the text of each operation line of its two
  windows, the call of the padding function replaced by that function's sixteen operations over the call's
  buffers.  The lists are cut where the computation has its joints: the padding's four sides, the zero, one list per tap
  (the fifth tap in two, at the boundary of the program's two windows), the final reshape.
-/
import proofs.«174138_j59966333386863_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 5 of 128: the constant the call takes; the padding's first row: rows 0 and 1 sliced, row 1 reversed and set above the input. -/
abbrev opsPadA : List (HloOp τ sig (Elt F)) :=
  [ StableHlo.nullary main_c (constantI S_ 32 0#32),
    StableHlo.TRef.unary (.of main_arg0 : StableHlo.TRef sig ⟨S8x256x128x128, .f32⟩) (.of main_call0_v0 : StableHlo.TRef sig ⟨S8x256x1x128, .f32⟩) (extractStridedSlice S8x256x1x128 ![0, 0, 0, 0] · slices_S8x256x128x128_S8x256x1x128_0_0_0_0),
    StableHlo.TRef.unary (.of main_arg0 : StableHlo.TRef sig ⟨S8x256x128x128, .f32⟩) (.of main_call0_v1 : StableHlo.TRef sig ⟨S8x256x1x128, .f32⟩) (extractStridedSlice S8x256x1x128 ![0, 0, 1, 0] · slices_S8x256x128x128_S8x256x1x128_0_0_1_0),
    StableHlo.TRef.unary (.of main_call0_v1 : StableHlo.TRef sig ⟨S8x256x1x128, .f32⟩) (.of main_call0_v2 : StableHlo.TRef sig ⟨S8x256x1x128, .f32⟩) (Host.reverse [2]),
    StableHlo.TRef.binary main_call0_call0.v0 (.of main_arg0 : StableHlo.TRef sig ⟨S8x256x128x128, .f32⟩) (.of main_call0_v3 : StableHlo.TRef sig ⟨S8x256x129x128, .f32⟩) (fun a b => concatenate S8x256x129x128 2 [⟨S8x256x1x128, a⟩, ⟨S8x256x128x128, b⟩] concatenates_S8x256x1x128_S8x256x128x128_S8x256x129x128_d2) ]

/-- Operations 6 … 9 of 128: the padding's last row: rows 128 and 127 sliced, row 127 reversed and set below. -/
abbrev opsPadB : List (HloOp τ sig (Elt F)) :=
  [ StableHlo.TRef.unary (.of main_call0_v3 : StableHlo.TRef sig ⟨S8x256x129x128, .f32⟩) (.of main_call0_v4 : StableHlo.TRef sig ⟨S8x256x1x128, .f32⟩) (extractStridedSlice S8x256x1x128 ![0, 0, 128, 0] · slices_S8x256x129x128_S8x256x1x128_0_0_128_0),
    StableHlo.TRef.unary (.of main_call0_v3 : StableHlo.TRef sig ⟨S8x256x129x128, .f32⟩) (.of main_call0_v5 : StableHlo.TRef sig ⟨S8x256x1x128, .f32⟩) (extractStridedSlice S8x256x1x128 ![0, 0, 127, 0] · slices_S8x256x129x128_S8x256x1x128_0_0_127_0),
    StableHlo.TRef.unary (.of main_call0_v5 : StableHlo.TRef sig ⟨S8x256x1x128, .f32⟩) (.of main_call0_v6 : StableHlo.TRef sig ⟨S8x256x1x128, .f32⟩) (Host.reverse [2]),
    StableHlo.TRef.binary (.of main_call0_v3 : StableHlo.TRef sig ⟨S8x256x129x128, .f32⟩) main_call0_call1.v0 (.of main_call0_v7 : StableHlo.TRef sig ⟨S8x256x130x128, .f32⟩) (fun a b => concatenate S8x256x130x128 2 [⟨S8x256x129x128, a⟩, ⟨S8x256x1x128, b⟩] concatenates_S8x256x129x128_S8x256x1x128_S8x256x130x128_d2) ]

/-- Operations 10 … 13 of 128: the padding's first column: columns 0 and 1 sliced, column 1 reversed and set to the left. -/
abbrev opsPadC : List (HloOp τ sig (Elt F)) :=
  [ StableHlo.TRef.unary (.of main_call0_v7 : StableHlo.TRef sig ⟨S8x256x130x128, .f32⟩) (.of main_call0_v8 : StableHlo.TRef sig ⟨S8x256x130x1, .f32⟩) (extractStridedSlice S8x256x130x1 ![0, 0, 0, 0] · slices_S8x256x130x128_S8x256x130x1_0_0_0_0),
    StableHlo.TRef.unary (.of main_call0_v7 : StableHlo.TRef sig ⟨S8x256x130x128, .f32⟩) (.of main_call0_v9 : StableHlo.TRef sig ⟨S8x256x130x1, .f32⟩) (extractStridedSlice S8x256x130x1 ![0, 0, 0, 1] · slices_S8x256x130x128_S8x256x130x1_0_0_0_1),
    StableHlo.TRef.unary (.of main_call0_v9 : StableHlo.TRef sig ⟨S8x256x130x1, .f32⟩) (.of main_call0_v10 : StableHlo.TRef sig ⟨S8x256x130x1, .f32⟩) (Host.reverse [3]),
    StableHlo.TRef.binary main_call0_call2.v0 (.of main_call0_v7 : StableHlo.TRef sig ⟨S8x256x130x128, .f32⟩) (.of main_call0_v11 : StableHlo.TRef sig ⟨S8x256x130x129, .f32⟩) (fun a b => concatenate S8x256x130x129 3 [⟨S8x256x130x1, a⟩, ⟨S8x256x130x128, b⟩] concatenates_S8x256x130x1_S8x256x130x128_S8x256x130x129_d3) ]

/-- Operations 14 … 17 of 128: the padding's last column: columns 128 and 127 sliced, column 127 reversed and set to the right. -/
abbrev opsPadD : List (HloOp τ sig (Elt F)) :=
  [ StableHlo.TRef.unary (.of main_call0_v11 : StableHlo.TRef sig ⟨S8x256x130x129, .f32⟩) (.of main_call0_v12 : StableHlo.TRef sig ⟨S8x256x130x1, .f32⟩) (extractStridedSlice S8x256x130x1 ![0, 0, 0, 128] · slices_S8x256x130x129_S8x256x130x1_0_0_0_128),
    StableHlo.TRef.unary (.of main_call0_v11 : StableHlo.TRef sig ⟨S8x256x130x129, .f32⟩) (.of main_call0_v13 : StableHlo.TRef sig ⟨S8x256x130x1, .f32⟩) (extractStridedSlice S8x256x130x1 ![0, 0, 0, 127] · slices_S8x256x130x129_S8x256x130x1_0_0_0_127),
    StableHlo.TRef.unary (.of main_call0_v13 : StableHlo.TRef sig ⟨S8x256x130x1, .f32⟩) (.of main_call0_v14 : StableHlo.TRef sig ⟨S8x256x130x1, .f32⟩) (Host.reverse [3]),
    StableHlo.TRef.binary (.of main_call0_v11 : StableHlo.TRef sig ⟨S8x256x130x129, .f32⟩) main_call0_call3.v0 (.of main_v0 : StableHlo.TRef sig ⟨S8x256x130x130, .f32⟩) (fun a b => concatenate S8x256x130x130 3 [⟨S8x256x130x129, a⟩, ⟨S8x256x130x1, b⟩] concatenates_S8x256x130x129_S8x256x130x1_S8x256x130x130_d3) ]

/-- Operations 18 … 19 of 128: the zero word and its broadcast. -/
abbrev opsInit : List (HloOp τ sig (Elt F)) :=
  [ StableHlo.nullary main_cst (constant S_ .f32 0x00000000#32),
    StableHlo.unary main_cst main_v1 (broadcastInDim S8x8x32x128x128 ![] bcast_S_S8x8x32x128x128 : (⟨S_, .f32⟩ : BufTy).Contents (Elt F) → (⟨S8x8x32x128x128, .f32⟩ : BufTy).Contents (Elt F)) ]

/-- Operations 20 … 31 of 128: tap (0, 0). -/
abbrev opsTap0 : List (HloOp τ sig (Elt F)) :=
  [ StableHlo.nullary main_c_0 (constantI S_ 32 0#32),
    StableHlo.nullary main_c_1 (constantI S_ 32 0#32),
    StableHlo.nullary main_c_2 (constantI S_ 32 0#32),
    StableHlo.nullary main_c_3 (constantI S_ 32 0#32),
    StableHlo.unaryIndexed main_v0 ![main_c_0, main_c_1, main_c_2, main_c_3] ⟨S_, .i32⟩ main_v2 ((fun x i => Host.dynamicSlice S8x256x128x128 x (fun k => (i k (Shape.Idx.first h_S_)).toInt) sliceFits_S8x256x130x130_S8x256x128x128) : (⟨S8x256x130x130, .f32⟩ : BufTy).Contents (Elt F) → (Fin 4 → (⟨S_, .i32⟩ : BufTy).Contents (Elt F)) → (⟨S8x256x128x128, .f32⟩ : BufTy).Contents (Elt F)),
    StableHlo.reshape main_v2 main_v3 rfl shapeCasts_S8x256x128x128_S8x8x32x128x128,
    StableHlo.unary main_arg1 main_v4 ((extractStridedSlice S8x32x1x128x128 ![0, 0, 0, 0, 0] · slices_S8x32x9x128x128_S8x32x1x128x128_0_0_0_0_0) : (⟨S8x32x9x128x128, .f32⟩ : BufTy).Contents (Elt F) → (⟨S8x32x1x128x128, .f32⟩ : BufTy).Contents (Elt F)),
    StableHlo.reshape main_v4 main_v5 rfl shapeCasts_S8x32x1x128x128_S8x32x128x128,
    StableHlo.unary main_v5 main_v6 (broadcastInDim S8x1x32x128x128 ![0, 2, 3, 4] bcast_S8x32x128x128_S8x1x32x128x128_0_2_3_4 : (⟨S8x32x128x128, .f32⟩ : BufTy).Contents (Elt F) → (⟨S8x1x32x128x128, .f32⟩ : BufTy).Contents (Elt F)),
    StableHlo.unary main_v6 main_v7 (broadcastInDim S8x8x32x128x128 ![0, 1, 2, 3, 4] bcast_S8x1x32x128x128_S8x8x32x128x128_0_1_2_3_4 : (⟨S8x1x32x128x128, .f32⟩ : BufTy).Contents (Elt F) → (⟨S8x8x32x128x128, .f32⟩ : BufTy).Contents (Elt F)),
    StableHlo.binary main_v3 main_v7 main_v8 (mulf : (⟨S8x8x32x128x128, .f32⟩ : BufTy).Contents (Elt F) → (⟨S8x8x32x128x128, .f32⟩ : BufTy).Contents (Elt F) → (⟨S8x8x32x128x128, .f32⟩ : BufTy).Contents (Elt F)),
    StableHlo.binary main_v1 main_v8 main_v9 (addf : (⟨S8x8x32x128x128, .f32⟩ : BufTy).Contents (Elt F) → (⟨S8x8x32x128x128, .f32⟩ : BufTy).Contents (Elt F) → (⟨S8x8x32x128x128, .f32⟩ : BufTy).Contents (Elt F)) ]

/-- Operations 32 … 43 of 128: tap (0, 1). -/
abbrev opsTap1 : List (HloOp τ sig (Elt F)) :=
  [ StableHlo.nullary main_c_4 (constantI S_ 32 0#32),
    StableHlo.nullary main_c_5 (constantI S_ 32 0#32),
    StableHlo.nullary main_c_6 (constantI S_ 32 0#32),
    StableHlo.nullary main_c_7 (constantI S_ 32 1#32),
    StableHlo.unaryIndexed main_v0 ![main_c_4, main_c_5, main_c_6, main_c_7] ⟨S_, .i32⟩ main_v10 ((fun x i => Host.dynamicSlice S8x256x128x128 x (fun k => (i k (Shape.Idx.first h_S_)).toInt) sliceFits_S8x256x130x130_S8x256x128x128) : (⟨S8x256x130x130, .f32⟩ : BufTy).Contents (Elt F) → (Fin 4 → (⟨S_, .i32⟩ : BufTy).Contents (Elt F)) → (⟨S8x256x128x128, .f32⟩ : BufTy).Contents (Elt F)),
    StableHlo.reshape main_v10 main_v11 rfl shapeCasts_S8x256x128x128_S8x8x32x128x128,
    StableHlo.unary main_arg1 main_v12 ((extractStridedSlice S8x32x1x128x128 ![0, 0, 1, 0, 0] · slices_S8x32x9x128x128_S8x32x1x128x128_0_0_1_0_0) : (⟨S8x32x9x128x128, .f32⟩ : BufTy).Contents (Elt F) → (⟨S8x32x1x128x128, .f32⟩ : BufTy).Contents (Elt F)),
    StableHlo.reshape main_v12 main_v13 rfl shapeCasts_S8x32x1x128x128_S8x32x128x128,
    StableHlo.unary main_v13 main_v14 (broadcastInDim S8x1x32x128x128 ![0, 2, 3, 4] bcast_S8x32x128x128_S8x1x32x128x128_0_2_3_4 : (⟨S8x32x128x128, .f32⟩ : BufTy).Contents (Elt F) → (⟨S8x1x32x128x128, .f32⟩ : BufTy).Contents (Elt F)),
    StableHlo.unary main_v14 main_v15 (broadcastInDim S8x8x32x128x128 ![0, 1, 2, 3, 4] bcast_S8x1x32x128x128_S8x8x32x128x128_0_1_2_3_4 : (⟨S8x1x32x128x128, .f32⟩ : BufTy).Contents (Elt F) → (⟨S8x8x32x128x128, .f32⟩ : BufTy).Contents (Elt F)),
    StableHlo.binary main_v11 main_v15 main_v16 (mulf : (⟨S8x8x32x128x128, .f32⟩ : BufTy).Contents (Elt F) → (⟨S8x8x32x128x128, .f32⟩ : BufTy).Contents (Elt F) → (⟨S8x8x32x128x128, .f32⟩ : BufTy).Contents (Elt F)),
    StableHlo.binary main_v9 main_v16 main_v17 (addf : (⟨S8x8x32x128x128, .f32⟩ : BufTy).Contents (Elt F) → (⟨S8x8x32x128x128, .f32⟩ : BufTy).Contents (Elt F) → (⟨S8x8x32x128x128, .f32⟩ : BufTy).Contents (Elt F)) ]

/-- Operations 44 … 55 of 128: tap (0, 2). -/
abbrev opsTap2 : List (HloOp τ sig (Elt F)) :=
  [ StableHlo.nullary main_c_8 (constantI S_ 32 0#32),
    StableHlo.nullary main_c_9 (constantI S_ 32 0#32),
    StableHlo.nullary main_c_10 (constantI S_ 32 0#32),
    StableHlo.nullary main_c_11 (constantI S_ 32 2#32),
    StableHlo.unaryIndexed main_v0 ![main_c_8, main_c_9, main_c_10, main_c_11] ⟨S_, .i32⟩ main_v18 ((fun x i => Host.dynamicSlice S8x256x128x128 x (fun k => (i k (Shape.Idx.first h_S_)).toInt) sliceFits_S8x256x130x130_S8x256x128x128) : (⟨S8x256x130x130, .f32⟩ : BufTy).Contents (Elt F) → (Fin 4 → (⟨S_, .i32⟩ : BufTy).Contents (Elt F)) → (⟨S8x256x128x128, .f32⟩ : BufTy).Contents (Elt F)),
    StableHlo.reshape main_v18 main_v19 rfl shapeCasts_S8x256x128x128_S8x8x32x128x128,
    StableHlo.unary main_arg1 main_v20 ((extractStridedSlice S8x32x1x128x128 ![0, 0, 2, 0, 0] · slices_S8x32x9x128x128_S8x32x1x128x128_0_0_2_0_0) : (⟨S8x32x9x128x128, .f32⟩ : BufTy).Contents (Elt F) → (⟨S8x32x1x128x128, .f32⟩ : BufTy).Contents (Elt F)),
    StableHlo.reshape main_v20 main_v21 rfl shapeCasts_S8x32x1x128x128_S8x32x128x128,
    StableHlo.unary main_v21 main_v22 (broadcastInDim S8x1x32x128x128 ![0, 2, 3, 4] bcast_S8x32x128x128_S8x1x32x128x128_0_2_3_4 : (⟨S8x32x128x128, .f32⟩ : BufTy).Contents (Elt F) → (⟨S8x1x32x128x128, .f32⟩ : BufTy).Contents (Elt F)),
    StableHlo.unary main_v22 main_v23 (broadcastInDim S8x8x32x128x128 ![0, 1, 2, 3, 4] bcast_S8x1x32x128x128_S8x8x32x128x128_0_1_2_3_4 : (⟨S8x1x32x128x128, .f32⟩ : BufTy).Contents (Elt F) → (⟨S8x8x32x128x128, .f32⟩ : BufTy).Contents (Elt F)),
    StableHlo.binary main_v19 main_v23 main_v24 (mulf : (⟨S8x8x32x128x128, .f32⟩ : BufTy).Contents (Elt F) → (⟨S8x8x32x128x128, .f32⟩ : BufTy).Contents (Elt F) → (⟨S8x8x32x128x128, .f32⟩ : BufTy).Contents (Elt F)),
    StableHlo.binary main_v17 main_v24 main_v25 (addf : (⟨S8x8x32x128x128, .f32⟩ : BufTy).Contents (Elt F) → (⟨S8x8x32x128x128, .f32⟩ : BufTy).Contents (Elt F) → (⟨S8x8x32x128x128, .f32⟩ : BufTy).Contents (Elt F)) ]

/-- Operations 56 … 67 of 128: tap (1, 0). -/
abbrev opsTap3 : List (HloOp τ sig (Elt F)) :=
  [ StableHlo.nullary main_c_12 (constantI S_ 32 0#32),
    StableHlo.nullary main_c_13 (constantI S_ 32 0#32),
    StableHlo.nullary main_c_14 (constantI S_ 32 1#32),
    StableHlo.nullary main_c_15 (constantI S_ 32 0#32),
    StableHlo.unaryIndexed main_v0 ![main_c_12, main_c_13, main_c_14, main_c_15] ⟨S_, .i32⟩ main_v26 ((fun x i => Host.dynamicSlice S8x256x128x128 x (fun k => (i k (Shape.Idx.first h_S_)).toInt) sliceFits_S8x256x130x130_S8x256x128x128) : (⟨S8x256x130x130, .f32⟩ : BufTy).Contents (Elt F) → (Fin 4 → (⟨S_, .i32⟩ : BufTy).Contents (Elt F)) → (⟨S8x256x128x128, .f32⟩ : BufTy).Contents (Elt F)),
    StableHlo.reshape main_v26 main_v27 rfl shapeCasts_S8x256x128x128_S8x8x32x128x128,
    StableHlo.unary main_arg1 main_v28 ((extractStridedSlice S8x32x1x128x128 ![0, 0, 3, 0, 0] · slices_S8x32x9x128x128_S8x32x1x128x128_0_0_3_0_0) : (⟨S8x32x9x128x128, .f32⟩ : BufTy).Contents (Elt F) → (⟨S8x32x1x128x128, .f32⟩ : BufTy).Contents (Elt F)),
    StableHlo.reshape main_v28 main_v29 rfl shapeCasts_S8x32x1x128x128_S8x32x128x128,
    StableHlo.unary main_v29 main_v30 (broadcastInDim S8x1x32x128x128 ![0, 2, 3, 4] bcast_S8x32x128x128_S8x1x32x128x128_0_2_3_4 : (⟨S8x32x128x128, .f32⟩ : BufTy).Contents (Elt F) → (⟨S8x1x32x128x128, .f32⟩ : BufTy).Contents (Elt F)),
    StableHlo.unary main_v30 main_v31 (broadcastInDim S8x8x32x128x128 ![0, 1, 2, 3, 4] bcast_S8x1x32x128x128_S8x8x32x128x128_0_1_2_3_4 : (⟨S8x1x32x128x128, .f32⟩ : BufTy).Contents (Elt F) → (⟨S8x8x32x128x128, .f32⟩ : BufTy).Contents (Elt F)),
    StableHlo.binary main_v27 main_v31 main_v32 (mulf : (⟨S8x8x32x128x128, .f32⟩ : BufTy).Contents (Elt F) → (⟨S8x8x32x128x128, .f32⟩ : BufTy).Contents (Elt F) → (⟨S8x8x32x128x128, .f32⟩ : BufTy).Contents (Elt F)),
    StableHlo.binary main_v25 main_v32 main_v33 (addf : (⟨S8x8x32x128x128, .f32⟩ : BufTy).Contents (Elt F) → (⟨S8x8x32x128x128, .f32⟩ : BufTy).Contents (Elt F) → (⟨S8x8x32x128x128, .f32⟩ : BufTy).Contents (Elt F)) ]

/-- Operations 68 … 75 of 128: tap (1, 1): the four starts, the window, the weight plane. -/
abbrev opsTap4a : List (HloOp τ sig (Elt F)) :=
  [ StableHlo.nullary main_c_16 (constantI S_ 32 0#32),
    StableHlo.nullary main_c_17 (constantI S_ 32 0#32),
    StableHlo.nullary main_c_18 (constantI S_ 32 1#32),
    StableHlo.nullary main_c_19 (constantI S_ 32 1#32),
    StableHlo.unaryIndexed main_v0 ![main_c_16, main_c_17, main_c_18, main_c_19] ⟨S_, .i32⟩ main_v34 ((fun x i => Host.dynamicSlice S8x256x128x128 x (fun k => (i k (Shape.Idx.first h_S_)).toInt) sliceFits_S8x256x130x130_S8x256x128x128) : (⟨S8x256x130x130, .f32⟩ : BufTy).Contents (Elt F) → (Fin 4 → (⟨S_, .i32⟩ : BufTy).Contents (Elt F)) → (⟨S8x256x128x128, .f32⟩ : BufTy).Contents (Elt F)),
    StableHlo.reshape main_v34 main_v35 rfl shapeCasts_S8x256x128x128_S8x8x32x128x128,
    StableHlo.unary main_arg1 main_v36 ((extractStridedSlice S8x32x1x128x128 ![0, 0, 4, 0, 0] · slices_S8x32x9x128x128_S8x32x1x128x128_0_0_4_0_0) : (⟨S8x32x9x128x128, .f32⟩ : BufTy).Contents (Elt F) → (⟨S8x32x1x128x128, .f32⟩ : BufTy).Contents (Elt F)),
    StableHlo.reshape main_v36 main_v37 rfl shapeCasts_S8x32x1x128x128_S8x32x128x128 ]

/-- Operations 76 … 79 of 128: tap (1, 1): the broadcasts, the product, the sum. -/
abbrev opsTap4b : List (HloOp τ sig (Elt F)) :=
  [ StableHlo.unary main_v37 main_v38 (broadcastInDim S8x1x32x128x128 ![0, 2, 3, 4] bcast_S8x32x128x128_S8x1x32x128x128_0_2_3_4 : (⟨S8x32x128x128, .f32⟩ : BufTy).Contents (Elt F) → (⟨S8x1x32x128x128, .f32⟩ : BufTy).Contents (Elt F)),
    StableHlo.unary main_v38 main_v39 (broadcastInDim S8x8x32x128x128 ![0, 1, 2, 3, 4] bcast_S8x1x32x128x128_S8x8x32x128x128_0_1_2_3_4 : (⟨S8x1x32x128x128, .f32⟩ : BufTy).Contents (Elt F) → (⟨S8x8x32x128x128, .f32⟩ : BufTy).Contents (Elt F)),
    StableHlo.binary main_v35 main_v39 main_v40 (mulf : (⟨S8x8x32x128x128, .f32⟩ : BufTy).Contents (Elt F) → (⟨S8x8x32x128x128, .f32⟩ : BufTy).Contents (Elt F) → (⟨S8x8x32x128x128, .f32⟩ : BufTy).Contents (Elt F)),
    StableHlo.binary main_v33 main_v40 main_v41 (addf : (⟨S8x8x32x128x128, .f32⟩ : BufTy).Contents (Elt F) → (⟨S8x8x32x128x128, .f32⟩ : BufTy).Contents (Elt F) → (⟨S8x8x32x128x128, .f32⟩ : BufTy).Contents (Elt F)) ]

/-- Operations 80 … 91 of 128: tap (1, 2). -/
abbrev opsTap5 : List (HloOp τ sig (Elt F)) :=
  [ StableHlo.nullary main_c_20 (constantI S_ 32 0#32),
    StableHlo.nullary main_c_21 (constantI S_ 32 0#32),
    StableHlo.nullary main_c_22 (constantI S_ 32 1#32),
    StableHlo.nullary main_c_23 (constantI S_ 32 2#32),
    StableHlo.unaryIndexed main_v0 ![main_c_20, main_c_21, main_c_22, main_c_23] ⟨S_, .i32⟩ main_v42 ((fun x i => Host.dynamicSlice S8x256x128x128 x (fun k => (i k (Shape.Idx.first h_S_)).toInt) sliceFits_S8x256x130x130_S8x256x128x128) : (⟨S8x256x130x130, .f32⟩ : BufTy).Contents (Elt F) → (Fin 4 → (⟨S_, .i32⟩ : BufTy).Contents (Elt F)) → (⟨S8x256x128x128, .f32⟩ : BufTy).Contents (Elt F)),
    StableHlo.reshape main_v42 main_v43 rfl shapeCasts_S8x256x128x128_S8x8x32x128x128,
    StableHlo.unary main_arg1 main_v44 ((extractStridedSlice S8x32x1x128x128 ![0, 0, 5, 0, 0] · slices_S8x32x9x128x128_S8x32x1x128x128_0_0_5_0_0) : (⟨S8x32x9x128x128, .f32⟩ : BufTy).Contents (Elt F) → (⟨S8x32x1x128x128, .f32⟩ : BufTy).Contents (Elt F)),
    StableHlo.reshape main_v44 main_v45 rfl shapeCasts_S8x32x1x128x128_S8x32x128x128,
    StableHlo.unary main_v45 main_v46 (broadcastInDim S8x1x32x128x128 ![0, 2, 3, 4] bcast_S8x32x128x128_S8x1x32x128x128_0_2_3_4 : (⟨S8x32x128x128, .f32⟩ : BufTy).Contents (Elt F) → (⟨S8x1x32x128x128, .f32⟩ : BufTy).Contents (Elt F)),
    StableHlo.unary main_v46 main_v47 (broadcastInDim S8x8x32x128x128 ![0, 1, 2, 3, 4] bcast_S8x1x32x128x128_S8x8x32x128x128_0_1_2_3_4 : (⟨S8x1x32x128x128, .f32⟩ : BufTy).Contents (Elt F) → (⟨S8x8x32x128x128, .f32⟩ : BufTy).Contents (Elt F)),
    StableHlo.binary main_v43 main_v47 main_v48 (mulf : (⟨S8x8x32x128x128, .f32⟩ : BufTy).Contents (Elt F) → (⟨S8x8x32x128x128, .f32⟩ : BufTy).Contents (Elt F) → (⟨S8x8x32x128x128, .f32⟩ : BufTy).Contents (Elt F)),
    StableHlo.binary main_v41 main_v48 main_v49 (addf : (⟨S8x8x32x128x128, .f32⟩ : BufTy).Contents (Elt F) → (⟨S8x8x32x128x128, .f32⟩ : BufTy).Contents (Elt F) → (⟨S8x8x32x128x128, .f32⟩ : BufTy).Contents (Elt F)) ]

/-- Operations 92 … 103 of 128: tap (2, 0). -/
abbrev opsTap6 : List (HloOp τ sig (Elt F)) :=
  [ StableHlo.nullary main_c_24 (constantI S_ 32 0#32),
    StableHlo.nullary main_c_25 (constantI S_ 32 0#32),
    StableHlo.nullary main_c_26 (constantI S_ 32 2#32),
    StableHlo.nullary main_c_27 (constantI S_ 32 0#32),
    StableHlo.unaryIndexed main_v0 ![main_c_24, main_c_25, main_c_26, main_c_27] ⟨S_, .i32⟩ main_v50 ((fun x i => Host.dynamicSlice S8x256x128x128 x (fun k => (i k (Shape.Idx.first h_S_)).toInt) sliceFits_S8x256x130x130_S8x256x128x128) : (⟨S8x256x130x130, .f32⟩ : BufTy).Contents (Elt F) → (Fin 4 → (⟨S_, .i32⟩ : BufTy).Contents (Elt F)) → (⟨S8x256x128x128, .f32⟩ : BufTy).Contents (Elt F)),
    StableHlo.reshape main_v50 main_v51 rfl shapeCasts_S8x256x128x128_S8x8x32x128x128,
    StableHlo.unary main_arg1 main_v52 ((extractStridedSlice S8x32x1x128x128 ![0, 0, 6, 0, 0] · slices_S8x32x9x128x128_S8x32x1x128x128_0_0_6_0_0) : (⟨S8x32x9x128x128, .f32⟩ : BufTy).Contents (Elt F) → (⟨S8x32x1x128x128, .f32⟩ : BufTy).Contents (Elt F)),
    StableHlo.reshape main_v52 main_v53 rfl shapeCasts_S8x32x1x128x128_S8x32x128x128,
    StableHlo.unary main_v53 main_v54 (broadcastInDim S8x1x32x128x128 ![0, 2, 3, 4] bcast_S8x32x128x128_S8x1x32x128x128_0_2_3_4 : (⟨S8x32x128x128, .f32⟩ : BufTy).Contents (Elt F) → (⟨S8x1x32x128x128, .f32⟩ : BufTy).Contents (Elt F)),
    StableHlo.unary main_v54 main_v55 (broadcastInDim S8x8x32x128x128 ![0, 1, 2, 3, 4] bcast_S8x1x32x128x128_S8x8x32x128x128_0_1_2_3_4 : (⟨S8x1x32x128x128, .f32⟩ : BufTy).Contents (Elt F) → (⟨S8x8x32x128x128, .f32⟩ : BufTy).Contents (Elt F)),
    StableHlo.binary main_v51 main_v55 main_v56 (mulf : (⟨S8x8x32x128x128, .f32⟩ : BufTy).Contents (Elt F) → (⟨S8x8x32x128x128, .f32⟩ : BufTy).Contents (Elt F) → (⟨S8x8x32x128x128, .f32⟩ : BufTy).Contents (Elt F)),
    StableHlo.binary main_v49 main_v56 main_v57 (addf : (⟨S8x8x32x128x128, .f32⟩ : BufTy).Contents (Elt F) → (⟨S8x8x32x128x128, .f32⟩ : BufTy).Contents (Elt F) → (⟨S8x8x32x128x128, .f32⟩ : BufTy).Contents (Elt F)) ]

/-- Operations 104 … 115 of 128: tap (2, 1). -/
abbrev opsTap7 : List (HloOp τ sig (Elt F)) :=
  [ StableHlo.nullary main_c_28 (constantI S_ 32 0#32),
    StableHlo.nullary main_c_29 (constantI S_ 32 0#32),
    StableHlo.nullary main_c_30 (constantI S_ 32 2#32),
    StableHlo.nullary main_c_31 (constantI S_ 32 1#32),
    StableHlo.unaryIndexed main_v0 ![main_c_28, main_c_29, main_c_30, main_c_31] ⟨S_, .i32⟩ main_v58 ((fun x i => Host.dynamicSlice S8x256x128x128 x (fun k => (i k (Shape.Idx.first h_S_)).toInt) sliceFits_S8x256x130x130_S8x256x128x128) : (⟨S8x256x130x130, .f32⟩ : BufTy).Contents (Elt F) → (Fin 4 → (⟨S_, .i32⟩ : BufTy).Contents (Elt F)) → (⟨S8x256x128x128, .f32⟩ : BufTy).Contents (Elt F)),
    StableHlo.reshape main_v58 main_v59 rfl shapeCasts_S8x256x128x128_S8x8x32x128x128,
    StableHlo.unary main_arg1 main_v60 ((extractStridedSlice S8x32x1x128x128 ![0, 0, 7, 0, 0] · slices_S8x32x9x128x128_S8x32x1x128x128_0_0_7_0_0) : (⟨S8x32x9x128x128, .f32⟩ : BufTy).Contents (Elt F) → (⟨S8x32x1x128x128, .f32⟩ : BufTy).Contents (Elt F)),
    StableHlo.reshape main_v60 main_v61 rfl shapeCasts_S8x32x1x128x128_S8x32x128x128,
    StableHlo.unary main_v61 main_v62 (broadcastInDim S8x1x32x128x128 ![0, 2, 3, 4] bcast_S8x32x128x128_S8x1x32x128x128_0_2_3_4 : (⟨S8x32x128x128, .f32⟩ : BufTy).Contents (Elt F) → (⟨S8x1x32x128x128, .f32⟩ : BufTy).Contents (Elt F)),
    StableHlo.unary main_v62 main_v63 (broadcastInDim S8x8x32x128x128 ![0, 1, 2, 3, 4] bcast_S8x1x32x128x128_S8x8x32x128x128_0_1_2_3_4 : (⟨S8x1x32x128x128, .f32⟩ : BufTy).Contents (Elt F) → (⟨S8x8x32x128x128, .f32⟩ : BufTy).Contents (Elt F)),
    StableHlo.binary main_v59 main_v63 main_v64 (mulf : (⟨S8x8x32x128x128, .f32⟩ : BufTy).Contents (Elt F) → (⟨S8x8x32x128x128, .f32⟩ : BufTy).Contents (Elt F) → (⟨S8x8x32x128x128, .f32⟩ : BufTy).Contents (Elt F)),
    StableHlo.binary main_v57 main_v64 main_v65 (addf : (⟨S8x8x32x128x128, .f32⟩ : BufTy).Contents (Elt F) → (⟨S8x8x32x128x128, .f32⟩ : BufTy).Contents (Elt F) → (⟨S8x8x32x128x128, .f32⟩ : BufTy).Contents (Elt F)) ]

/-- Operations 116 … 127 of 128: tap (2, 2). -/
abbrev opsTap8 : List (HloOp τ sig (Elt F)) :=
  [ StableHlo.nullary main_c_32 (constantI S_ 32 0#32),
    StableHlo.nullary main_c_33 (constantI S_ 32 0#32),
    StableHlo.nullary main_c_34 (constantI S_ 32 2#32),
    StableHlo.nullary main_c_35 (constantI S_ 32 2#32),
    StableHlo.unaryIndexed main_v0 ![main_c_32, main_c_33, main_c_34, main_c_35] ⟨S_, .i32⟩ main_v66 ((fun x i => Host.dynamicSlice S8x256x128x128 x (fun k => (i k (Shape.Idx.first h_S_)).toInt) sliceFits_S8x256x130x130_S8x256x128x128) : (⟨S8x256x130x130, .f32⟩ : BufTy).Contents (Elt F) → (Fin 4 → (⟨S_, .i32⟩ : BufTy).Contents (Elt F)) → (⟨S8x256x128x128, .f32⟩ : BufTy).Contents (Elt F)),
    StableHlo.reshape main_v66 main_v67 rfl shapeCasts_S8x256x128x128_S8x8x32x128x128,
    StableHlo.unary main_arg1 main_v68 ((extractStridedSlice S8x32x1x128x128 ![0, 0, 8, 0, 0] · slices_S8x32x9x128x128_S8x32x1x128x128_0_0_8_0_0) : (⟨S8x32x9x128x128, .f32⟩ : BufTy).Contents (Elt F) → (⟨S8x32x1x128x128, .f32⟩ : BufTy).Contents (Elt F)),
    StableHlo.reshape main_v68 main_v69 rfl shapeCasts_S8x32x1x128x128_S8x32x128x128,
    StableHlo.unary main_v69 main_v70 (broadcastInDim S8x1x32x128x128 ![0, 2, 3, 4] bcast_S8x32x128x128_S8x1x32x128x128_0_2_3_4 : (⟨S8x32x128x128, .f32⟩ : BufTy).Contents (Elt F) → (⟨S8x1x32x128x128, .f32⟩ : BufTy).Contents (Elt F)),
    StableHlo.unary main_v70 main_v71 (broadcastInDim S8x8x32x128x128 ![0, 1, 2, 3, 4] bcast_S8x1x32x128x128_S8x8x32x128x128_0_1_2_3_4 : (⟨S8x1x32x128x128, .f32⟩ : BufTy).Contents (Elt F) → (⟨S8x8x32x128x128, .f32⟩ : BufTy).Contents (Elt F)),
    StableHlo.binary main_v67 main_v71 main_v72 (mulf : (⟨S8x8x32x128x128, .f32⟩ : BufTy).Contents (Elt F) → (⟨S8x8x32x128x128, .f32⟩ : BufTy).Contents (Elt F) → (⟨S8x8x32x128x128, .f32⟩ : BufTy).Contents (Elt F)),
    StableHlo.binary main_v65 main_v72 main_v73 (addf : (⟨S8x8x32x128x128, .f32⟩ : BufTy).Contents (Elt F) → (⟨S8x8x32x128x128, .f32⟩ : BufTy).Contents (Elt F) → (⟨S8x8x32x128x128, .f32⟩ : BufTy).Contents (Elt F)) ]

/-- Operations 128 … 128 of 128: the groups merged. -/
abbrev opsFin : List (HloOp τ sig (Elt F)) :=
  [ StableHlo.reshape main_v73 main_v74 rfl shapeCasts_S8x8x32x128x128_S8x256x128x128 ]

end Cert.ReferenceIdeal.RefRun

end
-- ==== Proof.RefMain.lean ====
/-
  The reference program is the straight line of its 128 operations: each of its two windows is the sequence of
  its part of the list (the call of the padding function unfolds to that function's operations over the call's
  buffers), the whole program the two in order.  Every operation touches buffers of the TensorCore only, and the
  signature scopes no buffer and no semaphore.
-/
import proofs.«174138_j59966333386863_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's 75 operations: the padding, the zero, four taps and the first eight operations of the fifth. -/
abbrev ops_part0 : List (HloOp τ sig (Elt F)) :=
  opsPadA ++ (opsPadB ++ (opsPadC ++ (opsPadD ++ (opsInit ++ (opsTap0 ++ (opsTap1 ++ (opsTap2 ++ (opsTap3 ++ opsTap4a))))))))

/-- The second window's 53 operations: the rest of the fifth tap, four taps, the final reshape. -/
abbrev ops_part1 : List (HloOp τ sig (Elt F)) :=
  opsTap4b ++ (opsTap5 ++ (opsTap6 ++ (opsTap7 ++ (opsTap8 ++ opsFin))))

/-- All 128 operations, in order. -/
abbrev ops : List (HloOp τ sig (Elt F)) := ops_part0 ++ ops_part1

set_option maxRecDepth 8192 in
theorem main_part0_eq (c : Dev nD) : main_part0 (F := F) c = seq ops_part0 := rfl

set_option maxRecDepth 8192 in
theorem main_part1_eq (c : Dev nD) : main_part1 (F := F) c = seq ops_part1 := rfl

set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefVals.lean ====
/-
  What each stretch of the reference's operations leaves in the buffers, from ANY contents V before it.

  The padding is four stretches, one per side: each slices the row (column) next to an edge, reverses it and
  concatenates it outside; Involution.pad is the four composed.  The zero is a constant broadcast.  A tap is twelve
  operations: four constant starts, the window of the padded input at those starts (a dynamic slice: at constant
  starts inside the operand it is the static slice), its channels split into groups, weight plane k sliced,
  reshaped and broadcast over the groups, the product, the sum onto the running sum: Involution.tap.  Every stretch
  leaves the padded input and the two arguments as they were.
-/
import proofs.«174138_j59966333386863_1_alg».proof.Proof.RefOps
import proofs.«174138_j59966333386863_1_alg».proof.Proof.Spec
import Idealize.ShloMosaic.Lib.DynamicIndex

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The padding, side by side -/

open Involution in
/-- Row 1 of the input (one row: its reversal) set above the input. -/
def padA (x : FVec F Involution.SX .f32) : FVec F Involution.SR129 .f32 :=
  concatenate SR129 2 [⟨SR1, Host.reverse (s := SR1) [2] (extractStridedSlice SR1 ![0, 0, 1, 0] x (by decide))⟩, ⟨SX, x⟩] cat1

open Involution in
/-- Row 127 of that (the input's row 126) set below it. -/
def padB (a : FVec F Involution.SR129 .f32) : FVec F Involution.SR130 .f32 :=
  concatenate SR130 2 [⟨SR129, a⟩, ⟨SR1, Host.reverse (s := SR1) [2] (extractStridedSlice SR1 ![0, 0, 127, 0] a (by decide))⟩] cat2

open Involution in
/-- Column 1 of that set to its left. -/
def padC (b : FVec F Involution.SR130 .f32) : FVec F Involution.SC129 .f32 :=
  concatenate SC129 3 [⟨SC1, Host.reverse (s := SC1) [3] (extractStridedSlice SC1 ![0, 0, 0, 1] b (by decide))⟩, ⟨SR130, b⟩] cat3

open Involution in
/-- Column 127 of that set to its right. -/
def padD (d : FVec F Involution.SC129 .f32) : FVec F Involution.SP .f32 :=
  concatenate SP 3 [⟨SC129, d⟩, ⟨SC1, Host.reverse (s := SC1) [3] (extractStridedSlice SC1 ![0, 0, 0, 127] d (by decide))⟩] cat4

/-- The reflect padding is its four sides in order. -/
theorem pad_eq (x : FVec F Involution.SX .f32) : Involution.pad x = padD (padC (padB (padA x))) := rfl

set_option maxRecDepth 8192 in
theorem padA_v3 (V : Valuation τ sig (Elt F)) :
    after opsPadA V (no_index (Proc.devRef .tc main_call0_v3)) = padA (V (Proc.devRef .tc main_arg0)) := by
  simp only [opsPadA]
  after_results
  rfl

set_option maxRecDepth 8192 in
theorem padA_arg0 (V : Valuation τ sig (Elt F)) :
    after opsPadA V (no_index (Proc.devRef .tc main_arg0)) = V (Proc.devRef .tc main_arg0) := by
  simp only [opsPadA]
  after_results_simp

set_option maxRecDepth 8192 in
theorem padA_arg1 (V : Valuation τ sig (Elt F)) :
    after opsPadA V (no_index (Proc.devRef .tc main_arg1)) = V (Proc.devRef .tc main_arg1) := by
  simp only [opsPadA]
  after_results_simp

set_option maxRecDepth 8192 in
theorem padB_v7 (V : Valuation τ sig (Elt F)) :
    after opsPadB V (no_index (Proc.devRef .tc main_call0_v7)) = padB (V (Proc.devRef .tc main_call0_v3)) := by
  simp only [opsPadB]
  after_results
  rfl

set_option maxRecDepth 8192 in
theorem padB_arg0 (V : Valuation τ sig (Elt F)) :
    after opsPadB V (no_index (Proc.devRef .tc main_arg0)) = V (Proc.devRef .tc main_arg0) := by
  simp only [opsPadB]
  after_results_simp

set_option maxRecDepth 8192 in
theorem padB_arg1 (V : Valuation τ sig (Elt F)) :
    after opsPadB V (no_index (Proc.devRef .tc main_arg1)) = V (Proc.devRef .tc main_arg1) := by
  simp only [opsPadB]
  after_results_simp

set_option maxRecDepth 8192 in
theorem padC_v11 (V : Valuation τ sig (Elt F)) :
    after opsPadC V (no_index (Proc.devRef .tc main_call0_v11)) = padC (V (Proc.devRef .tc main_call0_v7)) := by
  simp only [opsPadC]
  after_results
  rfl

set_option maxRecDepth 8192 in
theorem padC_arg0 (V : Valuation τ sig (Elt F)) :
    after opsPadC V (no_index (Proc.devRef .tc main_arg0)) = V (Proc.devRef .tc main_arg0) := by
  simp only [opsPadC]
  after_results_simp

set_option maxRecDepth 8192 in
theorem padC_arg1 (V : Valuation τ sig (Elt F)) :
    after opsPadC V (no_index (Proc.devRef .tc main_arg1)) = V (Proc.devRef .tc main_arg1) := by
  simp only [opsPadC]
  after_results_simp

set_option maxRecDepth 8192 in
theorem padD_v0 (V : Valuation τ sig (Elt F)) :
    after opsPadD V (no_index (Proc.devRef .tc main_v0)) = padD (V (Proc.devRef .tc main_call0_v11)) := by
  simp only [opsPadD]
  after_results
  rfl

set_option maxRecDepth 8192 in
theorem padD_arg0 (V : Valuation τ sig (Elt F)) :
    after opsPadD V (no_index (Proc.devRef .tc main_arg0)) = V (Proc.devRef .tc main_arg0) := by
  simp only [opsPadD]
  after_results_simp

set_option maxRecDepth 8192 in
theorem padD_arg1 (V : Valuation τ sig (Elt F)) :
    after opsPadD V (no_index (Proc.devRef .tc main_arg1)) = V (Proc.devRef .tc main_arg1) := by
  simp only [opsPadD]
  after_results_simp

/-- After the padding's seventeen operations the padded buffer holds Involution.pad of the first argument. -/
theorem pad_v0 (V : Valuation τ sig (Elt F)) :
    after opsPadD (after opsPadC (after opsPadB (after opsPadA V))) (no_index (Proc.devRef .tc main_v0))
      = Involution.pad (V (Proc.devRef .tc main_arg0)) := by
  rw [padD_v0, padC_v11, padB_v7, padA_v3, pad_eq]

theorem pad_arg0 (V : Valuation τ sig (Elt F)) :
    after opsPadD (after opsPadC (after opsPadB (after opsPadA V))) (no_index (Proc.devRef .tc main_arg0))
      = V (Proc.devRef .tc main_arg0) := by
  rw [padD_arg0, padC_arg0, padB_arg0, padA_arg0]

theorem pad_arg1 (V : Valuation τ sig (Elt F)) :
    after opsPadD (after opsPadC (after opsPadB (after opsPadA V))) (no_index (Proc.devRef .tc main_arg1))
      = V (Proc.devRef .tc main_arg1) := by
  rw [padD_arg1, padC_arg1, padB_arg1, padA_arg1]

/-! ## The zero -/

set_option maxRecDepth 8192 in
theorem init_v1 (V : Valuation τ sig (Elt F)) :
    after opsInit V (no_index (Proc.devRef .tc main_v1))
      = broadcastInDim Involution.SG ![] Involution.bcZ (constant Involution.S0 .f32 0x00000000#32) := by
  simp only [opsInit]
  after_results_simp <;> rfl

set_option maxRecDepth 8192 in
theorem init_v0 (V : Valuation τ sig (Elt F)) :
    after opsInit V (no_index (Proc.devRef .tc main_v0)) = V (Proc.devRef .tc main_v0) := by
  simp only [opsInit]
  after_results_simp

set_option maxRecDepth 8192 in
theorem init_arg0 (V : Valuation τ sig (Elt F)) :
    after opsInit V (no_index (Proc.devRef .tc main_arg0)) = V (Proc.devRef .tc main_arg0) := by
  simp only [opsInit]
  after_results_simp

set_option maxRecDepth 8192 in
theorem init_arg1 (V : Valuation τ sig (Elt F)) :
    after opsInit V (no_index (Proc.devRef .tc main_arg1)) = V (Proc.devRef .tc main_arg1) := by
  simp only [opsInit]
  after_results_simp

/-! ## The taps -/

/-- A dynamic slice of the padded input whose four starts are the constant words 0, 0, kh, kw (kh and kw small
    enough to read back signed as themselves, the window inside the operand) is the static window at (0, 0, kh, kw):
    nothing is clamped. -/
theorem dynamicSlice_starts (xp : FVec F Involution.SP .f32) (i : Fin 4 → (⟨S_, .i32⟩ : BufTy).Contents (Elt F)) (kh kw : Nat)
    (hkh : kh < 2 ^ 31) (hkw : kw < 2 ^ 31) (hp : Involution.SP.Slices ![0, 0, kh, kw] Involution.SX)
    (h0 : i 0 = constantI S_ 32 0#32) (h1 : i 1 = constantI S_ 32 0#32)
    (h2 : i 2 = constantI S_ 32 (BitVec.ofNat 32 kh)) (h3 : i 3 = constantI S_ 32 (BitVec.ofNat 32 kw)) :
    Host.dynamicSlice S8x256x128x128 xp (fun k => (i k (Shape.Idx.first h_S_)).toInt) sliceFits_S8x256x130x130_S8x256x128x128
      = extractStridedSlice Involution.SX ![0, 0, kh, kw] xp hp := by
  refine Host.dynamicSlice_eq_extractStridedSlice _ _ _ _ _ hp ?_
  intro a
  fin_cases a
  · show (i 0 _).toInt = _
    rw [h0]; rfl
  · show (i 1 _).toInt = _
    rw [h1]; rfl
  · show (i 2 _).toInt = _
    rw [h2]; exact toInt_ofNat_of_lt hkh
  · show (i 3 _).toInt = _
    rw [h3]; exact toInt_ofNat_of_lt hkw

-- tap (0, 0), weight plane 0: onto main_v1, into main_v9
set_option maxRecDepth 8192 in
theorem tap0_acc (V : Valuation τ sig (Elt F)) :
    after opsTap0 V (no_index (Proc.devRef .tc main_v9))
      = Involution.tap 0 0 0 (by decide) (by decide) (V (Proc.devRef .tc main_v0)) (V (Proc.devRef .tc main_arg1)) (V (Proc.devRef .tc main_v1)) := by
  simp only [opsTap0]
  after_results_simp
  rw [dynamicSlice_starts _ _ 0 0 (by decide) (by decide) (by decide) ?h0 ?h1 ?h2 ?h3]
  · rfl
  all_goals (simp only [Matrix.cons_val]; after_results_simp; rfl)

set_option maxRecDepth 8192 in
theorem tap0_v0 (V : Valuation τ sig (Elt F)) :
    after opsTap0 V (no_index (Proc.devRef .tc main_v0)) = V (Proc.devRef .tc main_v0) := by
  simp only [opsTap0]
  after_results_simp

set_option maxRecDepth 8192 in
theorem tap0_arg0 (V : Valuation τ sig (Elt F)) :
    after opsTap0 V (no_index (Proc.devRef .tc main_arg0)) = V (Proc.devRef .tc main_arg0) := by
  simp only [opsTap0]
  after_results_simp

set_option maxRecDepth 8192 in
theorem tap0_arg1 (V : Valuation τ sig (Elt F)) :
    after opsTap0 V (no_index (Proc.devRef .tc main_arg1)) = V (Proc.devRef .tc main_arg1) := by
  simp only [opsTap0]
  after_results_simp

-- tap (0, 1), weight plane 1: onto main_v9, into main_v17
set_option maxRecDepth 8192 in
theorem tap1_acc (V : Valuation τ sig (Elt F)) :
    after opsTap1 V (no_index (Proc.devRef .tc main_v17))
      = Involution.tap 0 1 1 (by decide) (by decide) (V (Proc.devRef .tc main_v0)) (V (Proc.devRef .tc main_arg1)) (V (Proc.devRef .tc main_v9)) := by
  simp only [opsTap1]
  after_results_simp
  rw [dynamicSlice_starts _ _ 0 1 (by decide) (by decide) (by decide) ?h0 ?h1 ?h2 ?h3]
  · rfl
  all_goals (simp only [Matrix.cons_val]; after_results_simp; rfl)

set_option maxRecDepth 8192 in
theorem tap1_v0 (V : Valuation τ sig (Elt F)) :
    after opsTap1 V (no_index (Proc.devRef .tc main_v0)) = V (Proc.devRef .tc main_v0) := by
  simp only [opsTap1]
  after_results_simp

set_option maxRecDepth 8192 in
theorem tap1_arg0 (V : Valuation τ sig (Elt F)) :
    after opsTap1 V (no_index (Proc.devRef .tc main_arg0)) = V (Proc.devRef .tc main_arg0) := by
  simp only [opsTap1]
  after_results_simp

set_option maxRecDepth 8192 in
theorem tap1_arg1 (V : Valuation τ sig (Elt F)) :
    after opsTap1 V (no_index (Proc.devRef .tc main_arg1)) = V (Proc.devRef .tc main_arg1) := by
  simp only [opsTap1]
  after_results_simp

-- tap (0, 2), weight plane 2: onto main_v17, into main_v25
set_option maxRecDepth 8192 in
theorem tap2_acc (V : Valuation τ sig (Elt F)) :
    after opsTap2 V (no_index (Proc.devRef .tc main_v25))
      = Involution.tap 0 2 2 (by decide) (by decide) (V (Proc.devRef .tc main_v0)) (V (Proc.devRef .tc main_arg1)) (V (Proc.devRef .tc main_v17)) := by
  simp only [opsTap2]
  after_results_simp
  rw [dynamicSlice_starts _ _ 0 2 (by decide) (by decide) (by decide) ?h0 ?h1 ?h2 ?h3]
  · rfl
  all_goals (simp only [Matrix.cons_val]; after_results_simp; rfl)

set_option maxRecDepth 8192 in
theorem tap2_v0 (V : Valuation τ sig (Elt F)) :
    after opsTap2 V (no_index (Proc.devRef .tc main_v0)) = V (Proc.devRef .tc main_v0) := by
  simp only [opsTap2]
  after_results_simp

set_option maxRecDepth 8192 in
theorem tap2_arg0 (V : Valuation τ sig (Elt F)) :
    after opsTap2 V (no_index (Proc.devRef .tc main_arg0)) = V (Proc.devRef .tc main_arg0) := by
  simp only [opsTap2]
  after_results_simp

set_option maxRecDepth 8192 in
theorem tap2_arg1 (V : Valuation τ sig (Elt F)) :
    after opsTap2 V (no_index (Proc.devRef .tc main_arg1)) = V (Proc.devRef .tc main_arg1) := by
  simp only [opsTap2]
  after_results_simp

-- tap (1, 0), weight plane 3: onto main_v25, into main_v33
set_option maxRecDepth 8192 in
theorem tap3_acc (V : Valuation τ sig (Elt F)) :
    after opsTap3 V (no_index (Proc.devRef .tc main_v33))
      = Involution.tap 1 0 3 (by decide) (by decide) (V (Proc.devRef .tc main_v0)) (V (Proc.devRef .tc main_arg1)) (V (Proc.devRef .tc main_v25)) := by
  simp only [opsTap3]
  after_results_simp
  rw [dynamicSlice_starts _ _ 1 0 (by decide) (by decide) (by decide) ?h0 ?h1 ?h2 ?h3]
  · rfl
  all_goals (simp only [Matrix.cons_val]; after_results_simp; rfl)

set_option maxRecDepth 8192 in
theorem tap3_v0 (V : Valuation τ sig (Elt F)) :
    after opsTap3 V (no_index (Proc.devRef .tc main_v0)) = V (Proc.devRef .tc main_v0) := by
  simp only [opsTap3]
  after_results_simp

set_option maxRecDepth 8192 in
theorem tap3_arg0 (V : Valuation τ sig (Elt F)) :
    after opsTap3 V (no_index (Proc.devRef .tc main_arg0)) = V (Proc.devRef .tc main_arg0) := by
  simp only [opsTap3]
  after_results_simp

set_option maxRecDepth 8192 in
theorem tap3_arg1 (V : Valuation τ sig (Elt F)) :
    after opsTap3 V (no_index (Proc.devRef .tc main_arg1)) = V (Proc.devRef .tc main_arg1) := by
  simp only [opsTap3]
  after_results_simp

-- tap (1, 1), weight plane 4, in its two stretches: onto main_v33, into main_v41
set_option maxRecDepth 8192 in
theorem tap4_acc (V : Valuation τ sig (Elt F)) :
    after opsTap4b (after opsTap4a V) (no_index (Proc.devRef .tc main_v41))
      = Involution.tap 1 1 4 (by decide) (by decide) (V (Proc.devRef .tc main_v0)) (V (Proc.devRef .tc main_arg1)) (V (Proc.devRef .tc main_v33)) := by
  simp only [opsTap4a, opsTap4b]
  after_results_simp
  rw [dynamicSlice_starts _ _ 1 1 (by decide) (by decide) (by decide) ?h0 ?h1 ?h2 ?h3]
  · rfl
  all_goals (simp only [Matrix.cons_val]; after_results_simp; rfl)

set_option maxRecDepth 8192 in
theorem tap4_v0 (V : Valuation τ sig (Elt F)) :
    after opsTap4b (after opsTap4a V) (no_index (Proc.devRef .tc main_v0)) = V (Proc.devRef .tc main_v0) := by
  simp only [opsTap4a, opsTap4b]
  after_results_simp

set_option maxRecDepth 8192 in
theorem tap4_arg0 (V : Valuation τ sig (Elt F)) :
    after opsTap4b (after opsTap4a V) (no_index (Proc.devRef .tc main_arg0)) = V (Proc.devRef .tc main_arg0) := by
  simp only [opsTap4a, opsTap4b]
  after_results_simp

set_option maxRecDepth 8192 in
theorem tap4_arg1 (V : Valuation τ sig (Elt F)) :
    after opsTap4b (after opsTap4a V) (no_index (Proc.devRef .tc main_arg1)) = V (Proc.devRef .tc main_arg1) := by
  simp only [opsTap4a, opsTap4b]
  after_results_simp

-- tap (1, 2), weight plane 5: onto main_v41, into main_v49
set_option maxRecDepth 8192 in
theorem tap5_acc (V : Valuation τ sig (Elt F)) :
    after opsTap5 V (no_index (Proc.devRef .tc main_v49))
      = Involution.tap 1 2 5 (by decide) (by decide) (V (Proc.devRef .tc main_v0)) (V (Proc.devRef .tc main_arg1)) (V (Proc.devRef .tc main_v41)) := by
  simp only [opsTap5]
  after_results_simp
  rw [dynamicSlice_starts _ _ 1 2 (by decide) (by decide) (by decide) ?h0 ?h1 ?h2 ?h3]
  · rfl
  all_goals (simp only [Matrix.cons_val]; after_results_simp; rfl)

set_option maxRecDepth 8192 in
theorem tap5_v0 (V : Valuation τ sig (Elt F)) :
    after opsTap5 V (no_index (Proc.devRef .tc main_v0)) = V (Proc.devRef .tc main_v0) := by
  simp only [opsTap5]
  after_results_simp

set_option maxRecDepth 8192 in
theorem tap5_arg0 (V : Valuation τ sig (Elt F)) :
    after opsTap5 V (no_index (Proc.devRef .tc main_arg0)) = V (Proc.devRef .tc main_arg0) := by
  simp only [opsTap5]
  after_results_simp

set_option maxRecDepth 8192 in
theorem tap5_arg1 (V : Valuation τ sig (Elt F)) :
    after opsTap5 V (no_index (Proc.devRef .tc main_arg1)) = V (Proc.devRef .tc main_arg1) := by
  simp only [opsTap5]
  after_results_simp

-- tap (2, 0), weight plane 6: onto main_v49, into main_v57
set_option maxRecDepth 8192 in
theorem tap6_acc (V : Valuation τ sig (Elt F)) :
    after opsTap6 V (no_index (Proc.devRef .tc main_v57))
      = Involution.tap 2 0 6 (by decide) (by decide) (V (Proc.devRef .tc main_v0)) (V (Proc.devRef .tc main_arg1)) (V (Proc.devRef .tc main_v49)) := by
  simp only [opsTap6]
  after_results_simp
  rw [dynamicSlice_starts _ _ 2 0 (by decide) (by decide) (by decide) ?h0 ?h1 ?h2 ?h3]
  · rfl
  all_goals (simp only [Matrix.cons_val]; after_results_simp; rfl)

set_option maxRecDepth 8192 in
theorem tap6_v0 (V : Valuation τ sig (Elt F)) :
    after opsTap6 V (no_index (Proc.devRef .tc main_v0)) = V (Proc.devRef .tc main_v0) := by
  simp only [opsTap6]
  after_results_simp

set_option maxRecDepth 8192 in
theorem tap6_arg0 (V : Valuation τ sig (Elt F)) :
    after opsTap6 V (no_index (Proc.devRef .tc main_arg0)) = V (Proc.devRef .tc main_arg0) := by
  simp only [opsTap6]
  after_results_simp

set_option maxRecDepth 8192 in
theorem tap6_arg1 (V : Valuation τ sig (Elt F)) :
    after opsTap6 V (no_index (Proc.devRef .tc main_arg1)) = V (Proc.devRef .tc main_arg1) := by
  simp only [opsTap6]
  after_results_simp

-- tap (2, 1), weight plane 7: onto main_v57, into main_v65
set_option maxRecDepth 8192 in
theorem tap7_acc (V : Valuation τ sig (Elt F)) :
    after opsTap7 V (no_index (Proc.devRef .tc main_v65))
      = Involution.tap 2 1 7 (by decide) (by decide) (V (Proc.devRef .tc main_v0)) (V (Proc.devRef .tc main_arg1)) (V (Proc.devRef .tc main_v57)) := by
  simp only [opsTap7]
  after_results_simp
  rw [dynamicSlice_starts _ _ 2 1 (by decide) (by decide) (by decide) ?h0 ?h1 ?h2 ?h3]
  · rfl
  all_goals (simp only [Matrix.cons_val]; after_results_simp; rfl)

set_option maxRecDepth 8192 in
theorem tap7_v0 (V : Valuation τ sig (Elt F)) :
    after opsTap7 V (no_index (Proc.devRef .tc main_v0)) = V (Proc.devRef .tc main_v0) := by
  simp only [opsTap7]
  after_results_simp

set_option maxRecDepth 8192 in
theorem tap7_arg0 (V : Valuation τ sig (Elt F)) :
    after opsTap7 V (no_index (Proc.devRef .tc main_arg0)) = V (Proc.devRef .tc main_arg0) := by
  simp only [opsTap7]
  after_results_simp

set_option maxRecDepth 8192 in
theorem tap7_arg1 (V : Valuation τ sig (Elt F)) :
    after opsTap7 V (no_index (Proc.devRef .tc main_arg1)) = V (Proc.devRef .tc main_arg1) := by
  simp only [opsTap7]
  after_results_simp

-- tap (2, 2), weight plane 8: onto main_v65, into main_v73
set_option maxRecDepth 8192 in
theorem tap8_acc (V : Valuation τ sig (Elt F)) :
    after opsTap8 V (no_index (Proc.devRef .tc main_v73))
      = Involution.tap 2 2 8 (by decide) (by decide) (V (Proc.devRef .tc main_v0)) (V (Proc.devRef .tc main_arg1)) (V (Proc.devRef .tc main_v65)) := by
  simp only [opsTap8]
  after_results_simp
  rw [dynamicSlice_starts _ _ 2 2 (by decide) (by decide) (by decide) ?h0 ?h1 ?h2 ?h3]
  · rfl
  all_goals (simp only [Matrix.cons_val]; after_results_simp; rfl)

set_option maxRecDepth 8192 in
theorem tap8_arg0 (V : Valuation τ sig (Elt F)) :
    after opsTap8 V (no_index (Proc.devRef .tc main_arg0)) = V (Proc.devRef .tc main_arg0) := by
  simp only [opsTap8]
  after_results_simp

set_option maxRecDepth 8192 in
theorem tap8_arg1 (V : Valuation τ sig (Elt F)) :
    after opsTap8 V (no_index (Proc.devRef .tc main_arg1)) = V (Proc.devRef .tc main_arg1) := by
  simp only [opsTap8]
  after_results_simp

/-! ## The groups merged -/

set_option maxRecDepth 8192 in
theorem fin_v74 (V : Valuation τ sig (Elt F)) :
    after opsFin V (no_index (Proc.devRef .tc main_v74))
      = shapeCast Involution.SX (V (Proc.devRef .tc main_v73)) Involution.castGX := by
  simp only [opsFin]
  after_results_simp <;> rfl

set_option maxRecDepth 8192 in
theorem fin_arg0 (V : Valuation τ sig (Elt F)) :
    after opsFin V (no_index (Proc.devRef .tc main_arg0)) = V (Proc.devRef .tc main_arg0) := by
  simp only [opsFin]
  after_results_simp

set_option maxRecDepth 8192 in
theorem fin_arg1 (V : Valuation τ sig (Elt F)) :
    after opsFin V (no_index (Proc.devRef .tc main_arg1)) = V (Proc.devRef .tc main_arg1) := by
  simp only [opsFin]
  after_results_simp

end Cert.ReferenceIdeal.RefRun

end
-- ==== Proof.RefRun.lean ====
/-
  The reference program's run.  Its 128 operations in order are its stretches in order, so the contents they
  leave are the stretches' composed: the padded buffer holds Involution.pad of the first argument from the
  seventeenth operation on, each tap adds its product onto the sum the tap before it left (the first onto the
  broadcast zero), the last operation merges the groups: Involution.refOut of the padded input and the weights.
  No operation writes an argument.  Every weakly fair execution of the program from any memory ends there.
-/
import proofs.«174138_j59966333386863_1_alg».proof.Proof.RefMain
import proofs.«174138_j59966333386863_1_alg».proof.Proof.RefVals
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Every operation touches TensorCore buffers only -/

/-- What holds of every member of two lists holds of every member of their concatenation. -/
theorem forall_append {α : Type _} {P : α → Prop} {l₁ l₂ : List α} (h₁ : l₁.Forall P) (h₂ : l₂.Forall P) :
    (l₁ ++ l₂).Forall P :=
  List.forall_iff_forall_mem.mpr fun a ha =>
    (List.mem_append.mp ha).elim (List.forall_iff_forall_mem.mp h₁ a) (List.forall_iff_forall_mem.mp h₂ a)

theorem opsPadA_sub : (opsPadA : List (HloOp τ sig (Elt F))).Forall fun op => op.bufs ⊆ tcRefs τ sig :=
  ⟨nullary_bufs_sub .., unary_bufs_sub .., unary_bufs_sub .., unary_bufs_sub .., binary_bufs_sub ..⟩
theorem opsPadB_sub : (opsPadB : List (HloOp τ sig (Elt F))).Forall fun op => op.bufs ⊆ tcRefs τ sig :=
  ⟨unary_bufs_sub .., unary_bufs_sub .., unary_bufs_sub .., binary_bufs_sub ..⟩
theorem opsPadC_sub : (opsPadC : List (HloOp τ sig (Elt F))).Forall fun op => op.bufs ⊆ tcRefs τ sig :=
  ⟨unary_bufs_sub .., unary_bufs_sub .., unary_bufs_sub .., binary_bufs_sub ..⟩
theorem opsPadD_sub : (opsPadD : List (HloOp τ sig (Elt F))).Forall fun op => op.bufs ⊆ tcRefs τ sig :=
  ⟨unary_bufs_sub .., unary_bufs_sub .., unary_bufs_sub .., binary_bufs_sub ..⟩
theorem opsInit_sub : (opsInit : List (HloOp τ sig (Elt F))).Forall fun op => op.bufs ⊆ tcRefs τ sig :=
  ⟨nullary_bufs_sub .., unary_bufs_sub ..⟩
theorem opsTap0_sub : (opsTap0 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..,
    unary_bufs_sub .., reshape_bufs_sub .., unary_bufs_sub .., unary_bufs_sub .., binary_bufs_sub .., binary_bufs_sub ..⟩
theorem opsTap1_sub : (opsTap1 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..,
    unary_bufs_sub .., reshape_bufs_sub .., unary_bufs_sub .., unary_bufs_sub .., binary_bufs_sub .., binary_bufs_sub ..⟩
theorem opsTap2_sub : (opsTap2 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..,
    unary_bufs_sub .., reshape_bufs_sub .., unary_bufs_sub .., unary_bufs_sub .., binary_bufs_sub .., binary_bufs_sub ..⟩
theorem opsTap3_sub : (opsTap3 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..,
    unary_bufs_sub .., reshape_bufs_sub .., unary_bufs_sub .., unary_bufs_sub .., binary_bufs_sub .., binary_bufs_sub ..⟩
theorem opsTap4a_sub : (opsTap4a : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..,
    unary_bufs_sub .., reshape_bufs_sub ..⟩
theorem opsTap4b_sub : (opsTap4b : List (HloOp τ sig (Elt F))).Forall fun op => op.bufs ⊆ tcRefs τ sig :=
  ⟨unary_bufs_sub .., unary_bufs_sub .., binary_bufs_sub .., binary_bufs_sub ..⟩
theorem opsTap5_sub : (opsTap5 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..,
    unary_bufs_sub .., reshape_bufs_sub .., unary_bufs_sub .., unary_bufs_sub .., binary_bufs_sub .., binary_bufs_sub ..⟩
theorem opsTap6_sub : (opsTap6 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..,
    unary_bufs_sub .., reshape_bufs_sub .., unary_bufs_sub .., unary_bufs_sub .., binary_bufs_sub .., binary_bufs_sub ..⟩
theorem opsTap7_sub : (opsTap7 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..,
    unary_bufs_sub .., reshape_bufs_sub .., unary_bufs_sub .., unary_bufs_sub .., binary_bufs_sub .., binary_bufs_sub ..⟩
theorem opsTap8_sub : (opsTap8 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..,
    unary_bufs_sub .., reshape_bufs_sub .., unary_bufs_sub .., unary_bufs_sub .., binary_bufs_sub .., binary_bufs_sub ..⟩
theorem opsFin_sub : (opsFin : List (HloOp τ sig (Elt F))).Forall fun op => op.bufs ⊆ tcRefs τ sig :=
  reshape_bufs_sub ..

theorem ops_sub : (ops : List (HloOp τ sig (Elt F))).Forall fun op => op.bufs ⊆ tcRefs τ sig :=
  forall_append
    (forall_append opsPadA_sub (forall_append opsPadB_sub (forall_append opsPadC_sub (forall_append opsPadD_sub
      (forall_append opsInit_sub (forall_append opsTap0_sub (forall_append opsTap1_sub (forall_append opsTap2_sub
        (forall_append opsTap3_sub opsTap4a_sub)))))))))
    (forall_append opsTap4b_sub (forall_append opsTap5_sub (forall_append opsTap6_sub (forall_append opsTap7_sub
      (forall_append opsTap8_sub opsFin_sub)))))

/-! ## The contents after all 128 -/

/-- The whole line's contents are its stretches' contents, composed in order. -/
theorem after_ops (V : Valuation τ sig (Elt F)) :
    after ops V
      = after opsFin (after opsTap8 (after opsTap7 (after opsTap6 (after opsTap5 (after opsTap4b (after opsTap4a
          (after opsTap3 (after opsTap2 (after opsTap1 (after opsTap0 (after opsInit
            (after opsPadD (after opsPadC (after opsPadB (after opsPadA V))))))))))))))) := by
  simp only [ops, ops_part0, ops_part1, after_append]

/-- The result buffer ends at the nine taps over the padded first argument and the second, onto zeros, merged. -/
theorem ops_v74 (V : Valuation τ sig (Elt F)) :
    after ops V (Proc.devRef .tc main_v74)
      = Involution.refOut (Involution.pad (V (Proc.devRef .tc main_arg0))) (V (Proc.devRef .tc main_arg1)) := by
  rw [after_ops]
  simp only [fin_v74, tap8_acc, tap7_acc, tap6_acc, tap5_acc, tap4_acc, tap3_acc, tap2_acc, tap1_acc, tap0_acc,
    tap7_v0, tap6_v0, tap5_v0, tap4_v0, tap3_v0, tap2_v0, tap1_v0, tap0_v0, init_v0, pad_v0,
    tap7_arg1, tap6_arg1, tap5_arg1, tap4_arg1, tap3_arg1, tap2_arg1, tap1_arg1, tap0_arg1, init_arg1, pad_arg1, init_v1]
  rfl

/-- No operation writes the first argument. -/
theorem ops_arg0 (V : Valuation τ sig (Elt F)) :
    after ops V (Proc.devRef .tc main_arg0) = V (Proc.devRef .tc main_arg0) := by
  rw [after_ops]
  simp only [fin_arg0, tap8_arg0, tap7_arg0, tap6_arg0, tap5_arg0, tap4_arg0, tap3_arg0, tap2_arg0, tap1_arg0, tap0_arg0,
    init_arg0, pad_arg0]

/-- No operation writes the second argument. -/
theorem ops_arg1 (V : Valuation τ sig (Elt F)) :
    after ops V (Proc.devRef .tc main_arg1) = V (Proc.devRef .tc main_arg1) := by
  rw [after_ops]
  simp only [fin_arg1, tap8_arg1, tap7_arg1, tap6_arg1, tap5_arg1, tap4_arg1, tap3_arg1, tap2_arg1, tap1_arg1, tap0_arg1,
    init_arg1, pad_arg1]

/-! ## The run -/

set_option maxRecDepth 8192 in
/-- On every device, for any float values, from any memory with zero counters: every weakly fair execution of the
    reference terminates with its result buffer at Involution.refOut of the padded first argument and the second,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74)
          = Involution.refOut (Involution.pad (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v74).trans (ops_v74 (launchContents m c)),
      (h c main_arg0).trans (ops_arg0 (launchContents m c)),
      (h c main_arg1).trans (ops_arg1 (launchContents m c))⟩)
    (run_seq scopedRefs_eq scopedSems_eq defs main (fun _ => ops) main_eq (fun _ => ops_sub) m ρ)

end Cert.ReferenceIdeal.RefRun

end
-- ==== Proof.lean ====
/-
  Per-pixel 3×3 aggregation ("involution") over a reflect-padded input: the tiled kernel against the host reference.

  Both programs pad the input on the host with the same operations, so the padded array is one opaque function of the
  first argument on both sides. Over it, the kernel's grid point (n, q, h) writes the block of 64 channels and 32 rows
  whose value at (cl, y, x) is nine products — padded input at (64·q + cl, 32·h + y + kh, x + kw) times weight plane
  3·kh + kw of weight channel cl mod 32 at (32·h + y, x) — added in the order kh, kw = 0, 1, 2 onto zero; the blocks
  tile the result. The reference adds the same nine products in the same order at every position of the result viewed
  as 8 groups of 32 channels, channel c being member c mod 32 of group c / 32. The two sums are the same expression
  term by term: no law of the extended reals is used, and the precondition is never opened.
-/
import proofs.«174138_j59966333386863_1_alg».proof.Defs
import proofs.«174138_j59966333386863_1_alg».proof.Proof.Gen.Kernel
import proofs.«174138_j59966333386863_1_alg».proof.Proof.Gen.Kernel.Frame
import proofs.«174138_j59966333386863_1_alg».proof.Proof.Gen.KernelIdeal
import proofs.«174138_j59966333386863_1_alg».proof.Proof.Gen.KernelIdeal.Frame
import proofs.«174138_j59966333386863_1_alg».proof.Proof.Gen.ReferenceIdeal
import proofs.«174138_j59966333386863_1_alg».proof.Proof.Gen.Pre_finite_inputs
import proofs.«174138_j59966333386863_1_alg».proof.Proof.SpecAt
import proofs.«174138_j59966333386863_1_alg».proof.Proof.KernelArray
import proofs.«174138_j59966333386863_1_alg».proof.Proof.RefRun

noncomputable section

open Idealize.ShloMosaic Idealize.SL.Sem Idealize.ShloMosaic.ValueIdx

/-- The reference's term is the aggregation, position by position. -/
theorem Involution.refOut_eq_inv (xp : FVec Ideal Involution.SP .f32) (w : FVec Ideal Involution.SW .f32) :
    Involution.refOut xp w = Involution.inv xp w := by
  funext j
  obtain ⟨n, c, y, x, rfl⟩ : ∃ (n : Fin 8) (c : Fin 256) (y : Fin 128) (x : Fin 128), j = ix4 n c y x :=
    ⟨j 0, j 1, j 2, j 3, eq_ix4 j⟩
  rw [Involution.refOut_apply, Involution.inv_apply]

namespace Cert.Proof

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the result array at the aggregation over the padding of the first argument and the second
    argument; the arguments agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2, Involution.refOut_eq_inv]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
